-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x192x2 : Shape := ⟨3, ![1024, 192, 2]⟩
abbrev S1x192x192 : Shape := ⟨3, ![1, 192, 192]⟩
abbrev S_ : Shape := ⟨0, ![]⟩

class Facts : Prop where
  bcast_S_S1024x192x2 : S_.BroadcastsInDim S1024x192x2 (![] : Fin 0 → Fin S1024x192x2.rank)
  reducesTo_S1024x192x2_S_d0_1_2 : S1024x192x2.ReducesTo [0, 1, 2] S_
  h_S_ : 0 < S_.numel

variable [Facts]

def fn_part1 {F : FTy → Type} [FloatOps F] (main_v13 : IVec S_ 1) (main_v16 : IVec S1024x192x2 1) : IVec S_ 1 :=
  let main_c_5 : IVec S_ 1 := constantI S_ 1 1#1
  let main_v17 : IVec S_ 1 := (fun x v => Host.reduce IntOp.andi x v reducesTo_S1024x192x2_S_d0_1_2 h_S_) main_v16 main_c_5
  let main_v18 : IVec S_ 1 := andi main_v13 main_v17
  main_v18

def fn {F : FTy → Type} [FloatOps F] (main_arg0 : FVec F S1024x192x2 .f32) (main_arg1 : FVec F S1024x192x2 .f32) (main_arg2 : FVec F S1024x192x2 .f32) (main_arg3 : FVec F S1024x192x2 .f32) (main_arg4 : IVec S1x192x192 32) : IVec S_ 1 :=
  let main_v0 : FVec F S1024x192x2 .f32 := Host.absf main_arg0
  let main_cst : FVec F S_ .f32 := constant S_ .f32 0x7F800000#32
  let main_v1 : FVec F S1024x192x2 .f32 := broadcastInDim S1024x192x2 ![] bcast_S_S1024x192x2 main_cst
  let main_v2 : IVec S1024x192x2 1 := cmpf .olt main_v0 main_v1
  let main_c : IVec S_ 1 := constantI S_ 1 1#1
  let main_v3 : IVec S_ 1 := (fun x v => Host.reduce IntOp.andi x v reducesTo_S1024x192x2_S_d0_1_2 h_S_) main_v2 main_c
  let main_v4 : FVec F S1024x192x2 .f32 := Host.absf main_arg1
  let main_cst_0 : FVec F S_ .f32 := constant S_ .f32 0x7F800000#32
  let main_v5 : FVec F S1024x192x2 .f32 := broadcastInDim S1024x192x2 ![] bcast_S_S1024x192x2 main_cst_0
  let main_v6 : IVec S1024x192x2 1 := cmpf .olt main_v4 main_v5
  let main_c_1 : IVec S_ 1 := constantI S_ 1 1#1
  let main_v7 : IVec S_ 1 := (fun x v => Host.reduce IntOp.andi x v reducesTo_S1024x192x2_S_d0_1_2 h_S_) main_v6 main_c_1
  let main_v8 : IVec S_ 1 := andi main_v3 main_v7
  let main_v9 : FVec F S1024x192x2 .f32 := Host.absf main_arg2
  let main_cst_2 : FVec F S_ .f32 := constant S_ .f32 0x7F800000#32
  let main_v10 : FVec F S1024x192x2 .f32 := broadcastInDim S1024x192x2 ![] bcast_S_S1024x192x2 main_cst_2
  let main_v11 : IVec S1024x192x2 1 := cmpf .olt main_v9 main_v10
  let main_c_3 : IVec S_ 1 := constantI S_ 1 1#1
  let main_v12 : IVec S_ 1 := (fun x v => Host.reduce IntOp.andi x v reducesTo_S1024x192x2_S_d0_1_2 h_S_) main_v11 main_c_3
  let main_v13 : IVec S_ 1 := andi main_v8 main_v12
  let main_v14 : FVec F S1024x192x2 .f32 := Host.absf main_arg3
  let main_cst_4 : FVec F S_ .f32 := constant S_ .f32 0x7F800000#32
  let main_v15 : FVec F S1024x192x2 .f32 := broadcastInDim S1024x192x2 ![] bcast_S_S1024x192x2 main_cst_4
  let main_v16 : IVec S1024x192x2 1 := cmpf .olt main_v14 main_v15
  fn_part1 (F := F) main_v13 main_v16
-- ==== Kernel.lean ====
abbrev S1024x192x2 : Shape := ⟨3, ![1024, 192, 2]⟩
abbrev S1x192x192 : Shape := ⟨3, ![1, 192, 192]⟩
abbrev S1024x192x1 : Shape := ⟨3, ![1024, 192, 1]⟩
abbrev S1024x192 : Shape := ⟨2, ![1024, 192]⟩
abbrev S2x192x192 : Shape := ⟨3, ![2, 192, 192]⟩
abbrev S2x1x1 : Shape := ⟨3, ![2, 1, 1]⟩
abbrev S8x192 : Shape := ⟨2, ![8, 192]⟩
abbrev S1x1x1 : Shape := ⟨3, ![1, 1, 1]⟩
abbrev S192x192 : Shape := ⟨2, ![192, 192]⟩
abbrev S1x1 : Shape := ⟨2, ![1, 1]⟩
abbrev S8x192x1 : Shape := ⟨3, ![8, 192, 1]⟩
abbrev S8x1x192 : Shape := ⟨3, ![8, 1, 192]⟩
abbrev S8x192x192 : Shape := ⟨3, ![8, 192, 192]⟩
abbrev S192 : Shape := ⟨1, ![192]⟩
abbrev S1x192 : Shape := ⟨2, ![1, 192]⟩
abbrev S1 : Shape := ⟨1, ![1]⟩
abbrev S_ : Shape := ⟨0, ![]⟩

abbrev nBuf : Space → Nat
  | .hbm => 82
  | .vmem => 28
  | .smem => 0
  | _ => 0

abbrev bufTy : (tb : Table) → Fin (tcTables nBuf tb) → BufTy
  | .hbm, ⟨0, _⟩ => ⟨S1024x192x2, .f32⟩
  | .hbm, ⟨1, _⟩ => ⟨S1024x192x2, .f32⟩
  | .hbm, ⟨2, _⟩ => ⟨S1024x192x2, .f32⟩
  | .hbm, ⟨3, _⟩ => ⟨S1024x192x2, .f32⟩
  | .hbm, ⟨4, _⟩ => ⟨S1x192x192, .i32⟩
  | .hbm, ⟨5, _⟩ => ⟨S1024x192x1, .f32⟩
  | .hbm, ⟨6, _⟩ => ⟨S1024x192, .f32⟩
  | .hbm, ⟨7, _⟩ => ⟨S1024x192x1, .f32⟩
  | .hbm, ⟨8, _⟩ => ⟨S1024x192, .f32⟩
  | .hbm, ⟨9, _⟩ => ⟨S1024x192x1, .f32⟩
  | .hbm, ⟨10, _⟩ => ⟨S1024x192, .f32⟩
  | .hbm, ⟨11, _⟩ => ⟨S1024x192x1, .f32⟩
  | .hbm, ⟨12, _⟩ => ⟨S1024x192, .f32⟩
  | .hbm, ⟨13, _⟩ => ⟨S1024x192x1, .f32⟩
  | .hbm, ⟨14, _⟩ => ⟨S1024x192, .f32⟩
  | .hbm, ⟨15, _⟩ => ⟨S1024x192x1, .f32⟩
  | .hbm, ⟨16, _⟩ => ⟨S1024x192, .f32⟩
  | .hbm, ⟨17, _⟩ => ⟨S1024x192x1, .f32⟩
  | .hbm, ⟨18, _⟩ => ⟨S1024x192, .f32⟩
  | .hbm, ⟨19, _⟩ => ⟨S1024x192x1, .f32⟩
  | .hbm, ⟨20, _⟩ => ⟨S1024x192, .f32⟩
  | .hbm, ⟨21, _⟩ => ⟨S2x192x192, .f32⟩
  | .hbm, ⟨22, _⟩ => ⟨S2x192x192, .f32⟩
  | .hbm, ⟨23, _⟩ => ⟨S2x1x1, .f32⟩
  | .hbm, ⟨24, _⟩ => ⟨S2x1x1, .f32⟩
  | .hbm, ⟨25, _⟩ => ⟨S_, .f32⟩
  | .hbm, ⟨26, _⟩ => ⟨S192x192, .f32⟩
  | .hbm, ⟨27, _⟩ => ⟨S_, .f32⟩
  | .hbm, ⟨28, _⟩ => ⟨S192x192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S192x192, .i1⟩
  | .hbm, ⟨39, _⟩ => ⟨S192x192, .i32⟩
  | .hbm, ⟨40, _⟩ => ⟨S_, .i32⟩
  | .hbm, ⟨41, _⟩ => ⟨S192x192, .i32⟩
  | .hbm, ⟨42, _⟩ => ⟨S192x192, .i32⟩
  | .hbm, ⟨43, _⟩ => ⟨S192x192, .i32⟩
  | .hbm, ⟨44, _⟩ => ⟨S192x192, .i1⟩
  | .hbm, ⟨45, _⟩ => ⟨S_, .i1⟩
  | .hbm, ⟨46, _⟩ => ⟨S192x192, .i1⟩
  | .hbm, ⟨47, _⟩ => ⟨S192x192, .i1⟩
  | .hbm, ⟨48, _⟩ => ⟨S192x192, .i32⟩
  | .hbm, ⟨49, _⟩ => ⟨S_, .i32⟩
  | .hbm, ⟨50, _⟩ => ⟨S192x192, .i32⟩
  | .hbm, ⟨51, _⟩ => ⟨S192x192, .i1⟩
  | .hbm, ⟨52, _⟩ => ⟨S192x192, .i1⟩
  | .hbm, ⟨53, _⟩ => ⟨S_, .f32⟩
  | .hbm, ⟨54, _⟩ => ⟨S192x192, .f32⟩
  | .hbm, ⟨55, _⟩ => ⟨S192x192, .f32⟩
  | .hbm, ⟨56, _⟩ => ⟨S_, .f32⟩
  | .hbm, ⟨57, _⟩ => ⟨S192x192, .f32⟩
  | .hbm, ⟨58, _⟩ => ⟨S192x192, .f32⟩
  | .hbm, ⟨59, _⟩ => ⟨S_, .f32⟩
  | .hbm, ⟨60, _⟩ => ⟨S_, .f32⟩
  | .hbm, ⟨61, _⟩ => ⟨S192x192, .f32⟩
  | .hbm, ⟨62, _⟩ => ⟨S192x192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S192x192, .f32⟩
  | .hbm, ⟨68, _⟩ => ⟨S192x192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | .local _ .vmem, ⟨7, _⟩ => ⟨S8x192, .f32⟩
  | .local _ .vmem, ⟨8, _⟩ => ⟨S8x192, .f32⟩
  | .local _ .vmem, ⟨9, _⟩ => ⟨S8x192, .f32⟩
  | .local _ .vmem, ⟨10, _⟩ => ⟨S8x192, .f32⟩
  | .local _ .vmem, ⟨11, _⟩ => ⟨S8x192, .f32⟩
  | .local _ .vmem, ⟨12, _⟩ => ⟨S8x192, .f32⟩
  | .local _ .vmem, ⟨13, _⟩ => ⟨S8x192, .f32⟩
  | .local _ .vmem, ⟨14, _⟩ => ⟨S8x192, .f32⟩
  | .local _ .vmem, ⟨15, _⟩ => ⟨S8x192, .f32⟩
  | .local _ .vmem, ⟨16, _⟩ => ⟨S1x192x192, .f32⟩
  | .local _ .vmem, ⟨17, _⟩ => ⟨S1x192x192, .f32⟩
  | .local _ .vmem, ⟨18, _⟩ => ⟨S1x192x192, .f32⟩
  | .local _ .vmem, ⟨19, _⟩ => ⟨S1x192x192, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S192x192, .f32⟩
  | .local _ .vmem, ⟨25, _⟩ => ⟨S192x192, .f32⟩
  | .local _ .vmem, ⟨26, _⟩ => ⟨S1x1, .f32⟩
  | .local _ .vmem, ⟨27, _⟩ => ⟨S1x1, .f32⟩
  | _, _ => ⟨S1024x192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_cst_11 : Ref sig .tc := ⟨.hbm, 69, rfl⟩
abbrev main_v36 : Ref sig .tc := ⟨.hbm, 70, rfl⟩
abbrev main_cst_12 : Ref sig .tc := ⟨.hbm, 71, rfl⟩
abbrev main_v37 : Ref sig .tc := ⟨.hbm, 72, rfl⟩
abbrev main_cst_13 : Ref sig .tc := ⟨.hbm, 73, rfl⟩
abbrev main_v38 : Ref sig .tc := ⟨.hbm, 74, rfl⟩
abbrev main_v39 : Ref sig .tc := ⟨.hbm, 75, rfl⟩
abbrev main_cst_14 : Ref sig .tc := ⟨.hbm, 76, rfl⟩
abbrev main_v40 : Ref sig .tc := ⟨.hbm, 77, rfl⟩
abbrev main_v41 : Ref sig .tc := ⟨.hbm, 78, rfl⟩
abbrev main_cst_15 : Ref sig .tc := ⟨.hbm, 79, rfl⟩
abbrev main_v42 : Ref sig .tc := ⟨.hbm, 80, rfl⟩
abbrev main_v43 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v108 : BitVec 1 := Scalar.cmpi .eq arg1 c63_i32
  let v109 : BitVec 32 := Scalar.extui v108
  let c0_i32_41 : BitVec 32 := 0#32
  let v110 : BitVec 1 := Scalar.cmpi .ne v109 c0_i32_41
  v110

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x192x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  slices_S1024x192x2_S1024x192x1_0_0_0 : S1024x192x2.Slices ![0, 0, 0] S1024x192x1
  shapeCasts_S1024x192x1_S1024x192 : S1024x192x1.ShapeCasts S1024x192
  slices_S1024x192x2_S1024x192x1_0_0_1 : S1024x192x2.Slices ![0, 0, 1] S1024x192x1
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x192_S8x192_0_0 : ∀ a, (![0, 0] : Fin 2 → Nat) a + S8x192.size a ≤ S8x192.size a
  h_S8x192 : 0 < S8x192.numel
  shapeCasts_S8x192_S8x192 : S8x192.ShapeCasts S8x192
  shapeCasts_S8x192_S8x192x1 : S8x192.ShapeCasts S8x192x1
  shapeCasts_S8x192_S8x1x192 : S8x192.ShapeCasts S8x1x192
  broadcasts_S8x192x1_S8x192x192 : S8x192x1.Broadcasts S8x192x192
  broadcasts_S8x1x192_S8x192x192 : S8x1x192.Broadcasts S8x192x192
  reduces_S8x192x192_S192x192 : S8x192x192.Reduces [0] S192x192
  reduces_S8x192_S192 : S8x192.Reduces [0] S192
  shapeCasts_S192_S1x192 : S192.ShapeCasts S1x192
  reduces_S1x192_S1 : S1x192.Reduces [1] S1
  shapeCasts_S1_S1x1 : S1.ShapeCasts S1x1
  shapeCasts_S192x192_S1x192x192 : S192x192.ShapeCasts S1x192x192
  inb_S1x192x192_S1x192x192_0_0_0 : ∀ a, (![0, 0, 0] : Fin 3 → Nat) a + S1x192x192.size a ≤ S1x192x192.size a
  h_S1x192x192 : 0 < S1x192x192.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x192x192_S192x192_d0 : S2x192x192.ReducesTo [0] S192x192
  h_S_ : 0 < S_.numel
  reducesTo_S2x1x1_S_d0_1_2 : S2x1x1.ReducesTo [0, 1, 2] S_
  bcast_S_S192x192 : S_.BroadcastsInDim S192x192 (![] : Fin 0 → Fin S192x192.rank)
  shapeCasts_S1x192x192_S192x192 : S1x192x192.ShapeCasts S192x192
  reducesTo_S192x192_S_d0_1 : S192x192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x192.size a ≤ S1024x192.size a
  hwx0_0 : ∀ i : grid0.Coords, EltTy.bits .f32 = 32 ∨ (Rect.block (s := S1024x192) S8x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x192.size a ≤ S1024x192.size a
  hwx0_1 : ∀ i : grid0.Coords, EltTy.bits .f32 = 32 ∨ (Rect.block (s := S1024x192) S8x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x192.size a ≤ S1024x192.size a
  hwx0_2 : ∀ i : grid0.Coords, EltTy.bits .f32 = 32 ∨ (Rect.block (s := S1024x192) S8x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x192.size a ≤ S1024x192.size a
  hwx0_3 : ∀ i : grid0.Coords, EltTy.bits .f32 = 32 ∨ (Rect.block (s := S1024x192) S8x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x192.size a ≤ S1024x192.size a
  hwx0_4 : ∀ i : grid0.Coords, EltTy.bits .f32 = 32 ∨ (Rect.block (s := S1024x192) S8x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x192.size a ≤ S1024x192.size a
  hwx0_5 : ∀ i : grid0.Coords, EltTy.bits .f32 = 32 ∨ (Rect.block (s := S1024x192) S8x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x192.size a ≤ S1024x192.size a
  hwx0_6 : ∀ i : grid0.Coords, EltTy.bits .f32 = 32 ∨ (Rect.block (s := S1024x192) S8x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x192.size a ≤ S1024x192.size a
  hwx0_7 : ∀ i : grid0.Coords, EltTy.bits .f32 = 32 ∨ (Rect.block (s := S1024x192) S8x192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x192x192.size a ≤ S2x192x192.size a
  hwx0_8 : ∀ i : grid0.Coords, EltTy.bits .f32 = 32 ∨ (Rect.block (s := S2x192x192) S1x192x192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x192x192.size a ≤ S2x192x192.size a
  hwx0_9 : ∀ i : grid0.Coords, EltTy.bits .f32 = 32 ∨ (Rect.block (s := S2x192x192) S1x192x192.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)

variable [Facts₀]

abbrev win0_0 : Pipeline.Window sig grid0 :=
  Pipeline.Window.ofSpec (Memref.whole main_v1) S8x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8x192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8x192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8x192.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S1x192x192.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S1x192x192.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_2) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_3) S1x1x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x192x2 : Shape := ⟨3, ![1024, 192, 2]⟩
abbrev S1x192x192 : Shape := ⟨3, ![1, 192, 192]⟩
abbrev S_ : Shape := ⟨0, ![]⟩
abbrev S192x192 : Shape := ⟨2, ![192, 192]⟩
abbrev S1024x192x1 : Shape := ⟨3, ![1024, 192, 1]⟩
abbrev S1024x192 : Shape := ⟨2, ![1024, 192]⟩
abbrev S1024x1x192 : Shape := ⟨3, ![1024, 1, 192]⟩
abbrev S1024x192x192 : Shape := ⟨3, ![1024, 192, 192]⟩

abbrev nBuf : Space → Nat
  | .hbm => 137
  | .vmem => 0
  | .smem => 0
  | _ => 0

abbrev hbmTy0_0 (i : Nat) : BufTy := match i % 128 with
  | 0 => ⟨S1024x192x2, .f32⟩
  | 1 => ⟨S1024x192x2, .f32⟩
  | 2 => ⟨S1024x192x2, .f32⟩
  | 3 => ⟨S1024x192x2, .f32⟩
  | 4 => ⟨S1x192x192, .i32⟩
  | 5 => ⟨S1024x192x2, .f32⟩
  | 6 => ⟨S1024x192x2, .f32⟩
  | 7 => ⟨S_, .f32⟩
  | 8 => ⟨S_, .f32⟩
  | 9 => ⟨S_, .f32⟩
  | 10 => ⟨S_, .f32⟩
  | 11 => ⟨S1024x192x2, .f32⟩
  | 12 => ⟨S1024x192x2, .f32⟩
  | 13 => ⟨S_, .f32⟩
  | 14 => ⟨S_, .f32⟩
  | 15 => ⟨S_, .f32⟩
  | 16 => ⟨S_, .f32⟩
  | 17 => ⟨S_, .i1⟩
  | 18 => ⟨S192x192, .i1⟩
  | 19 => ⟨S192x192, .i32⟩
  | 20 => ⟨S_, .i32⟩
  | 21 => ⟨S192x192, .i32⟩
  | 22 => ⟨S192x192, .i32⟩
  | 23 => ⟨S192x192, .i32⟩
  | 24 => ⟨S192x192, .i1⟩
  | 25 => ⟨S_, .i1⟩
  | 26 => ⟨S192x192, .i1⟩
  | 27 => ⟨S192x192, .i1⟩
  | 28 => ⟨S1024x192x1, .f32⟩
  | 29 => ⟨S1024x192, .f32⟩
  | 30 => ⟨S1024x192x1, .f32⟩
  | 31 => ⟨S1024x192, .f32⟩
  | 32 => ⟨S1024x192x1, .f32⟩
  | 33 => ⟨S1024x192, .f32⟩
  | 34 => ⟨S1024x192x1, .f32⟩
  | 35 => ⟨S1024x192, .f32⟩
  | 36 => ⟨S1024x192, .f32⟩
  | 37 => ⟨S1024x192x1, .f32⟩
  | 38 => ⟨S1024x192, .f32⟩
  | 39 => ⟨S1024x1x192, .f32⟩
  | 40 => ⟨S1024x192x192, .f32⟩
  | 41 => ⟨S1024x192x192, .f32⟩
  | 42 => ⟨S1024x192x192, .f32⟩
  | 43 => ⟨S1024x192x1, .f32⟩
  | 44 => ⟨S1024x1x192, .f32⟩
  | 45 => ⟨S1024x192x192, .f32⟩
  | 46 => ⟨S1024x192x192, .f32⟩
  | 47 => ⟨S1024x192x192, .f32⟩
  | 48 => ⟨S1024x192x192, .f32⟩
  | 49 => ⟨S_, .i32⟩
  | 50 => ⟨S_, .f32⟩
  | 51 => ⟨S1024x192x192, .f32⟩
  | 52 => ⟨S1024x192x192, .f32⟩
  | 53 => ⟨S1024x192, .f32⟩
  | 54 => ⟨S1024x192x1, .f32⟩
  | 55 => ⟨S1024x192, .f32⟩
  | 56 => ⟨S1024x1x192, .f32⟩
  | 57 => ⟨S1024x192x192, .f32⟩
  | 58 => ⟨S1024x192x192, .f32⟩
  | 59 => ⟨S1024x192x192, .f32⟩
  | 60 => ⟨S1024x192x1, .f32⟩
  | 61 => ⟨S1024x1x192, .f32⟩
  | 62 => ⟨S1024x192x192, .f32⟩
  | 63 => ⟨S1024x192x192, .f32⟩
  | 64 => ⟨S1024x192x192, .f32⟩
  | 65 => ⟨S1024x192x192, .f32⟩
  | 66 => ⟨S_, .i32⟩
  | 67 => ⟨S_, .f32⟩
  | 68 => ⟨S1024x192x192, .f32⟩
  | 69 => ⟨S1024x192x192, .f32⟩
  | 70 => ⟨S1024x192x192, .f32⟩
  | 71 => ⟨S_, .f32⟩
  | 72 => ⟨S192x192, .f32⟩
  | 73 => ⟨S_, .f32⟩
  | 74 => ⟨S192x192, .f32⟩
  | 75 => ⟨S192x192, .f32⟩
  | 76 => ⟨S_, .f32⟩
  | 77 => ⟨S_, .f32⟩
  | 78 => ⟨S192x192, .f32⟩
  | 79 => ⟨S192x192, .f32⟩
  | 80 => ⟨S_, .f32⟩
  | 81 => ⟨S_, .f32⟩
  | 82 => ⟨S_, .f32⟩
  | 83 => ⟨S1024x192x2, .f32⟩
  | 84 => ⟨S1024x192x2, .f32⟩
  | 85 => ⟨S1024x192x2, .f32⟩
  | 86 => ⟨S1024x192x1, .f32⟩
  | 87 => ⟨S1024x192, .f32⟩
  | 88 => ⟨S1024x192x1, .f32⟩
  | 89 => ⟨S1024x192, .f32⟩
  | 90 => ⟨S1024x192x1, .f32⟩
  | 91 => ⟨S1024x1x192, .f32⟩
  | 92 => ⟨S1024x192x192, .f32⟩
  | 93 => ⟨S1024x192x192, .f32⟩
  | 94 => ⟨S1024x192x192, .f32⟩
  | 95 => ⟨S1024x192x1, .f32⟩
  | 96 => ⟨S1024x1x192, .f32⟩
  | 97 => ⟨S1024x192x192, .f32⟩
  | 98 => ⟨S1024x192x192, .f32⟩
  | 99 => ⟨S1024x192x192, .f32⟩
  | 100 => ⟨S1024x192x192, .f32⟩
  | 101 => ⟨S1024x192x192, .f32⟩
  | 102 => ⟨S1024x192x192, .f32⟩
  | 103 => ⟨S192x192, .i32⟩
  | 104 => ⟨S_, .i32⟩
  | 105 => ⟨S192x192, .i32⟩
  | 106 => ⟨S192x192, .i1⟩
  | 107 => ⟨S192x192, .i1⟩
  | 108 => ⟨S1x192x192, .i1⟩
  | 109 => ⟨S_, .f32⟩
  | 110 => ⟨S_, .f32⟩
  | 111 => ⟨S1024x192x192, .i1⟩
  | 112 => ⟨S1024x192x192, .f32⟩
  | 113 => ⟨S1024x192x192, .f32⟩
  | 114 => ⟨S1024x192x192, .f32⟩
  | 115 => ⟨S_, .f32⟩
  | 116 => ⟨S192x192, .f32⟩
  | 117 => ⟨S_, .f32⟩
  | 118 => ⟨S192x192, .f32⟩
  | 119 => ⟨S192x192, .f32⟩
  | 120 => ⟨S_, .f32⟩
  | 121 => ⟨S_, .f32⟩
  | 122 => ⟨S192x192, .f32⟩
  | 123 => ⟨S192x192, .f32⟩
  | 124 => ⟨S_, .f32⟩
  | 125 => ⟨S_, .f32⟩
  | 126 => ⟨S_, .f32⟩
  | 127 => ⟨S_, .f32⟩
  | _ => ⟨S1024x192x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S1024x192x2, .f32⟩

abbrev hbmTy (i : Nat) : BufTy := match i / 128 with
  | 0 => hbmTy0_0 i
  | 1 => hbmTy0_1 i
  | _ => ⟨S1024x192x2, .f32⟩

abbrev bufTy : (tb : Table) → Fin (tcTables nBuf tb) → BufTy
  | .hbm, ⟨i, _⟩ => hbmTy i
  | _, _ => ⟨S1024x192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_call2_v0 : Ref sig .tc := ⟨.hbm, 67, rfl⟩
abbrev main_call2_v1 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_call5_v0 : Ref sig .tc := ⟨.hbm, 121, rfl⟩
abbrev main_call5_v1 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_cst_17 : Ref sig .tc := ⟨.hbm, 128, rfl⟩
abbrev main_v85 : Ref sig .tc := ⟨.hbm, 129, rfl⟩
abbrev main_v86 : Ref sig .tc := ⟨.hbm, 130, rfl⟩
abbrev main_cst_18 : Ref sig .tc := ⟨.hbm, 131, rfl⟩
abbrev main_v87 : Ref sig .tc := ⟨.hbm, 132, rfl⟩
abbrev main_v88 : Ref sig .tc := ⟨.hbm, 133, rfl⟩
abbrev main_cst_19 : Ref sig .tc := ⟨.hbm, 134, rfl⟩
abbrev main_v89 : Ref sig .tc := ⟨.hbm, 135, rfl⟩
abbrev main_v90 : Ref sig .tc := ⟨.hbm, 136, rfl⟩

abbrev nD : Nat := 1
abbrev τ : Topo := Topo.v7x

variable {F : FTy → Type} [FloatOps F]

class Facts₀ : Prop where
  reducesTo_S1024x192x2_S_d0_1_2 : S1024x192x2.ReducesTo [0, 1, 2] S_
  h_S_ : 0 < S_.numel
  bcast_S_S192x192 : S_.BroadcastsInDim S192x192 (![] : Fin 0 → Fin S192x192.rank)
  slices_S1024x192x2_S1024x192x1_0_0_0 : S1024x192x2.Slices ![0, 0, 0] S1024x192x1
  shapeCasts_S1024x192x1_S1024x192 : S1024x192x1.ShapeCasts S1024x192
  slices_S1024x192x2_S1024x192x1_0_0_1 : S1024x192x2.Slices ![0, 0, 1] S1024x192x1
  bcast_S1024x192_S1024x192x1_0_1 : S1024x192.BroadcastsInDim S1024x192x1 (![0, 1] : Fin 2 → Fin S1024x192x1.rank)
  bcast_S1024x192_S1024x1x192_0_2 : S1024x192.BroadcastsInDim S1024x1x192 (![0, 2] : Fin 2 → Fin S1024x1x192.rank)
  bcast_S1024x192x1_S1024x192x192_0_1_2 : S1024x192x1.BroadcastsInDim S1024x192x192 (![0, 1, 2] : Fin 3 → Fin S1024x192x192.rank)
  bcast_S1024x1x192_S1024x192x192_0_1_2 : S1024x1x192.BroadcastsInDim S1024x192x192 (![0, 1, 2] : Fin 3 → Fin S1024x192x192.rank)
  bcast_S_S1024x192x192 : S_.BroadcastsInDim S1024x192x192 (![] : Fin 0 → Fin S1024x192x192.rank)
  reducesTo_S1024x192x192_S192x192_d0 : S1024x192x192.ReducesTo [0] S192x192
  reducesTo_S192x192_S_d0_1 : S192x192.ReducesTo [0, 1] S_
  bcast_S_S1024x192x2 : S_.BroadcastsInDim S1024x192x2 (![] : Fin 0 → Fin S1024x192x2.rank)
  shapeCasts_S1x192x192_S192x192 : S1x192x192.ShapeCasts S192x192
  bcast_S192x192_S1x192x192_1_2 : S192x192.BroadcastsInDim S1x192x192 (![1, 2] : Fin 2 → Fin S1x192x192.rank)
  bcast_S1x192x192_S1024x192x192_0_1_2 : S1x192x192.BroadcastsInDim S1024x192x192 (![0, 1, 2] : Fin 3 → Fin S1024x192x192.rank)

variable [Facts₀]

class Facts : Prop extends Facts₀ where

variable [Facts]
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.LibRestartSum.lean ====
/-
  Sums in a commutative monoid, regrouped: a sum over the first a·b naturals as a consecutive blocks of b terms, and
  a running sum that restarts at every multiple of a period p.

  A kernel that walks a long axis tile by tile, accumulating into a buffer it clears at the first tile of each
  period and writes out at the last, computes such a running sum: after the last tile of period c the buffer holds
  the p terms of that period (`restart_sum_last`), and the periods together give the whole sum (`sum_range_mul`).
  Nothing here needs the summands to be finite: only that addition is commutative and associative with 0 neutral,
  which holds on the extended reals.  (The last lemma is the instance 1024 = 2 · 64 · 8.)
-/
import Mathlib

open Finset

namespace FloorPlan.Laws

variable {M : Type*} [AddCommMonoid M]

/-- A sum over the first `a * b` naturals is a sum over `a` consecutive blocks of `b`. -/
theorem sum_range_mul (a b : ℕ) (g : ℕ → M) :
    ∑ k ∈ range (a * b), g k = ∑ i ∈ range a, ∑ j ∈ range b, g (i * b + j) := by
  induction a with
  | zero => simp
  | succ a ih =>
    rw [Nat.succ_mul, sum_range_add, ih, sum_range_succ]

/-- A running sum over the positions below `N` that restarts whenever the position is a multiple of `p`:
    after position `n` it holds the terms from the last restart up to `n`. -/
theorem restart_sum (p N : ℕ) (hp : 0 < p) (r S : ℕ → M)
    (h0 : ∀ n, n < N → n % p = 0 → S n = r n)
    (hs : ∀ n, n + 1 < N → (n + 1) % p ≠ 0 → S (n + 1) = S n + r (n + 1)) :
    ∀ n, n < N → S n = ∑ s ∈ range (n % p + 1), r (p * (n / p) + s) := by
  intro n
  induction n with
  | zero =>
    intro hn
    rw [h0 0 hn (Nat.zero_mod p)]
    simp
  | succ n ih =>
    intro hn
    have ih := ih (by omega)
    by_cases h : (n + 1) % p = 0
    · rw [h0 _ hn h, h, zero_add, sum_range_one, Nat.add_zero]
      congr 1
      have := Nat.div_add_mod (n + 1) p
      omega
    · have hlt := Nat.mod_lt n hp
      have e2 := Nat.div_add_mod n p
      generalize n / p = q at *
      generalize n % p = m' at *
      by_cases hcase : m' + 1 < p
      · have e : n + 1 = (m' + 1) + p * q := by omega
        have hm : (n + 1) % p = m' + 1 := by
          rw [e, Nat.add_mul_mod_self_left, Nat.mod_eq_of_lt hcase]
        have hd : (n + 1) / p = q := by
          rw [e, Nat.add_mul_div_left _ _ hp, Nat.div_eq_of_lt hcase, Nat.zero_add]
        rw [hs n hn h, ih, hm, hd, sum_range_succ (fun s => r (p * q + s)) (m' + 1)]
        congr 2
        omega
      · exfalso
        apply h
        have e : n + 1 = p * (q + 1) := by rw [Nat.mul_succ]; omega
        rw [e, Nat.mul_mod_right]

/-- The whole of one period of the running sum: after the period's last position it holds the
    period's `p` terms. -/
theorem restart_sum_last (p N : ℕ) (hp : 0 < p) (r S : ℕ → M)
    (h0 : ∀ n, n < N → n % p = 0 → S n = r n)
    (hs : ∀ n, n + 1 < N → (n + 1) % p ≠ 0 → S (n + 1) = S n + r (n + 1)) (c : ℕ) (hc : c * p + (p - 1) < N) :
    S (c * p + (p - 1)) = ∑ s ∈ range p, r (c * p + s) := by
  rw [restart_sum p N hp r S h0 hs _ hc]
  have h1 : (c * p + (p - 1)) % p = p - 1 := by
    rw [Nat.add_comm, Nat.add_mul_mod_self_right, Nat.mod_eq_of_lt (by omega)]
  have h2 : (c * p + (p - 1)) / p = c := by
    rw [Nat.add_comm, Nat.add_mul_div_right _ _ hp, Nat.div_eq_of_lt (by omega), Nat.zero_add]
  rw [h1, h2, Nat.sub_add_cancel hp, Nat.mul_comm]

/-- 1024 rows as 2 halves of 64 tiles of 8 rows. -/
theorem sum_rows_tiled (g : ℕ → M) :
    ∑ b ∈ range 1024, g b
      = ∑ c ∈ range 2, ∑ s ∈ range 64, ∑ u ∈ range 8, g ((c * 64 + s) * 8 + u) := by
  rw [show (1024 : ℕ) = 128 * 8 from rfl, sum_range_mul 128 8 g,
    show (128 : ℕ) = 2 * 64 from rfl, sum_range_mul 2 64 (fun t => ∑ u ∈ range 8, g (t * 8 + u))]

end FloorPlan.Laws
-- ==== Proof.Spec.lean ====
/-
  The floor-plan loss, term by term, on the extended reals.

  The four float inputs are arrays [1024, 192, 2]: positions `p`, sizes `s` and their targets `tp`,
  `ts`; component 0 is the x side (x, w), component 1 the y side (y, h).  For a batch row `b` and rooms
  `i`, `j` the loss is built from
    * `sqDiff p tp b r`   : the squared distance of room `r`'s two components from their targets,
    * `overlap p s b i j` : the area of the intersection of the boxes of rooms `i` and `j`,
    * `dist p s b i j`    : the distance between the centres of rooms `i` and `j`,
  each summed over the 1024 batch rows.  The kernel walks the rows as 2 halves of 64 tiles of 8 rows;
  `sum_tiled` says that this is the sum over all rows.
-/
import Idealize.ShloMosaic.PureOps.Ideal
import Idealize.ShloMosaic.PureOps.Ideal.Laws
import Idealize.ShloMosaic.Lib.ValueIdx
import proofs.«166481_j64450279244066_2_alg».proof.Proof.LibRestartSum

noncomputable section

namespace FloorPlan

open Idealize.ShloMosaic Idealize.ShloMosaic.ValueIdx Finset

/-! ## The literals -/

/-- The word of `0.5` denotes one half. -/
theorem ofBits_half : Ideal.ofBits .f32 0x3F000000#32 = ((1 / 2 : ℝ) : EReal) := by
  simp [Ideal.ofBits, Ideal.ieee, -EReal.coe_mul]; norm_num

/-- The word of `2.0` denotes two. -/
theorem ofBits_two : Ideal.ofBits .f32 0x40000000#32 = ((2 : ℝ) : EReal) := by
  simp [Ideal.ofBits, Ideal.ieee, -EReal.coe_mul]; norm_num

/-- Dividing by `2.0` is multiplying by `0.5`, on every extended real. -/
theorem div_two (x : EReal) :
    Ideal.div x (Ideal.ofBits .f32 0x40000000#32) = Ideal.ofBits .f32 0x3F000000#32 * x := by
  rw [ofBits_two, Ideal.div_coe (by norm_num : (2 : ℝ) ≠ 0), ofBits_half, mul_comm]

/-! ## A function of a row number, continued by zero past the last row -/

section Ext
variable {M : Type*} [AddCommMonoid M]

/-- `f` at row `b` when `b` is a row, zero otherwise. -/
def ext {n : ℕ} (f : Fin n → M) (b : ℕ) : M := if h : b < n then f ⟨b, h⟩ else 0

theorem ext_of_lt {n : ℕ} (f : Fin n → M) {b : ℕ} (h : b < n) : ext f b = f ⟨b, h⟩ := dif_pos h

theorem sum_range_ext {n : ℕ} (f : Fin n → M) : ∑ b ∈ range n, ext f b = ∑ b : Fin n, f b := by
  rw [Finset.sum_range]
  exact Finset.sum_congr rfl fun b _ => ext_of_lt f b.isLt

/-- The rows taken tile by tile — 2 halves of 64 tiles of 8 rows — are all 1024 rows. -/
theorem sum_tiled (f : Fin 1024 → M) :
    ∑ c : Fin 2, ∑ s ∈ range 64, ∑ u : Fin 8, ext f ((c.val * 64 + s) * 8 + u.val) = ∑ b : Fin 1024, f b := by
  rw [← sum_range_ext f, Laws.sum_rows_tiled (ext f), Finset.sum_range]
  refine Finset.sum_congr rfl fun c _ => Finset.sum_congr rfl fun s _ => ?_
  rw [Finset.sum_range]

end Ext

/-- A running sum over the 128 tiles that restarts at the first tile of each half and adds one tile of 8 rows per
    position: the two halves' last values add up to the sum over all 1024 rows. -/
theorem halves_total {M : Type*} [AddCommMonoid M] (g : Fin 1024 → M) (S : ℕ → M)
    (h0 : ∀ n, n < 128 → n % 64 = 0 → S n = ∑ u : Fin 8, ext g (n * 8 + u.val))
    (hs : ∀ n, n + 1 < 128 → (n + 1) % 64 ≠ 0 → S (n + 1) = S n + ∑ u : Fin 8, ext g ((n + 1) * 8 + u.val)) :
    ∑ c : Fin 2, S (c.val * 64 + 63) = ∑ b : Fin 1024, g b := by
  rw [← sum_tiled g]
  refine Finset.sum_congr rfl fun c _ => ?_
  exact Laws.restart_sum_last 64 128 (by norm_num) (fun n => ∑ u : Fin 8, ext g (n * 8 + u.val)) S h0 hs c.val
    (by have := c.isLt; omega)

/-! ## The terms of the loss -/

/-- An input array: 1024 batch rows, 192 rooms, 2 components. -/
abbrev Arr := (⟨3, ![1024, 192, 2]⟩ : Shape).Idx → EReal

/-- Room `r`'s squared distance from its target in batch row `b`: both components. -/
def sqDiff (p tp : Arr) (b : Fin 1024) (r : Fin 192) : EReal :=
  (p (ix3 b r 0) - tp (ix3 b r 0)) * (p (ix3 b r 0) - tp (ix3 b r 0))
    + (p (ix3 b r 1) - tp (ix3 b r 1)) * (p (ix3 b r 1) - tp (ix3 b r 1))

/-- The overlap of rooms `i` and `j` along component `k`: the smaller far edge minus the larger near
    edge, cut off below at zero. -/
def overlap1 (p s : Arr) (b : Fin 1024) (i j : Fin 192) (k : Fin 2) : EReal :=
  max (min (p (ix3 b i k) + s (ix3 b i k)) (p (ix3 b j k) + s (ix3 b j k))
    - max (p (ix3 b i k)) (p (ix3 b j k))) 0

/-- The area of the intersection of the boxes of rooms `i` and `j` in batch row `b`. -/
def overlap (p s : Arr) (b : Fin 1024) (i j : Fin 192) : EReal :=
  overlap1 p s b i j 0 * overlap1 p s b i j 1

/-- Component `k` of room `r`'s centre: the near edge plus half the size. -/
def centre (p s : Arr) (b : Fin 1024) (r : Fin 192) (k : Fin 2) : EReal :=
  p (ix3 b r k) + Ideal.ofBits .f32 0x3F000000#32 * s (ix3 b r k)

/-- The squared distance between the centres of rooms `i` and `j` in batch row `b`. -/
def sqDist (p s : Arr) (b : Fin 1024) (i j : Fin 192) : EReal :=
  (centre p s b i 0 - centre p s b j 0) * (centre p s b i 0 - centre p s b j 0)
    + (centre p s b i 1 - centre p s b j 1) * (centre p s b i 1 - centre p s b j 1)

/-- The distance between the centres of rooms `i` and `j` in batch row `b`. -/
def dist (p s : Arr) (b : Fin 1024) (i j : Fin 192) : EReal := Ideal.sqrt (sqDist p s b i j)

/-! ## Sums over every index of an array of rank 3 -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The squared differences of all entries of two input arrays, room by room. -/
theorem sum_sq_entries (p tp : Arr) :
    ∑ i, (p i - tp i) * (p i - tp i) = ∑ b : Fin 1024, ∑ r : Fin 192, sqDiff p tp b r := by
  rw [sum_idx3]
  refine Finset.sum_congr rfl fun b _ => Finset.sum_congr rfl fun r _ => ?_
  rw [Fin.sum_univ_two]
  rfl

/-! ## The two masks over pairs of rooms -/

/-- Pairs of rooms. -/
abbrev Pairs : Shape := ⟨2, ![192, 192]⟩
/-- A scalar. -/
abbrev Sc : Shape := ⟨0, ![]⟩

/-- The strict upper triangle, as the host builds it: false where the row number is at least the column number. -/
def triuMask (hb : Sc.BroadcastsInDim Pairs ![]) : Pairs.Idx → BitVec 1 :=
  select (cmpi .sge (addi (iotaInDim Pairs 32 0) (broadcastInDim Pairs ![] hb (constantI Sc 32 0#32))) (iotaInDim Pairs 32 1))
    (broadcastInDim Pairs ![] hb (constantI Sc 1 0#1)) (broadcastInDim Pairs ![] hb (constantI Sc 1 1#1))

/-- The adjacent pairs of the strict upper triangle: the adjacency word is positive. -/
def adjMask (hb : Sc.BroadcastsInDim Pairs ![]) (hc : (⟨3, ![1, 192, 192]⟩ : Shape).ShapeCasts Pairs)
    (adj : (⟨3, ![1, 192, 192]⟩ : Shape).Idx → BitVec 32) : Pairs.Idx → BitVec 1 :=
  andi (triuMask hb) (cmpi .sgt (shapeCast Pairs adj hc) (broadcastInDim Pairs ![] hb (constantI Sc 32 0#32)))

/-! ## The five results -/

/-- A total over all 1024 · 192 · 2 entries, divided by their number (the word of 393216.0). -/
def meanLoss (tot : EReal) : EReal :=
  Ideal.div (Ideal.ofBits .f32 0x00000000#32 + tot) (Ideal.ofBits .f32 0x48C00000#32)

/-- A penalty: the batch mean (division by the word of 1024.0) of a per-pair total `g`, summed over the pairs a mask keeps. -/
def penalty (T : Pairs.Idx → BitVec 1) (g : Fin 192 → Fin 192 → EReal) : EReal :=
  Ideal.ofBits .f32 0x00000000#32
    + ∑ j : Pairs.Idx, Scalar.select (T j)
        (Ideal.div (Ideal.ofBits .f32 0x00000000#32 + g (j 0) (j 1)) (Ideal.ofBits .f32 0x44800000#32))
        (Ideal.ofBits .f32 0x00000000#32)

/-- A penalty only reads the per-pair totals of the pairs its mask keeps. -/
theorem penalty_congr (T : Pairs.Idx → BitVec 1) (g g' : Fin 192 → Fin 192 → EReal)
    (h : ∀ j : Pairs.Idx, T j = 1#1 → g (j 0) (j 1) = g' (j 0) (j 1)) : penalty T g = penalty T g' := by
  unfold penalty
  congr 1
  refine Finset.sum_congr rfl fun j _ => ?_
  by_cases hT : T j = 1#1
  · rw [hT, select_one, select_one, h j hT]
  · rw [eq_zero_of_ne_one hT, select_zero, select_zero]

/-- The weighted total: 1.0 · position + 1.0 · size + 0.5 · overlap + 0.3 · adjacency, as the host adds them. -/
def combine (a b c d : EReal) : EReal :=
  Ideal.ofBits .f32 0x3F800000#32 * a + Ideal.ofBits .f32 0x3F800000#32 * b + Ideal.ofBits .f32 0x3F000000#32 * c
    + Ideal.ofBits .f32 0x3E99999A#32 * d

/-- The position (or size) loss of two input arrays. -/
def lossOf (p tp : Arr) : EReal := meanLoss (∑ b : Fin 1024, ∑ r : Fin 192, sqDiff p tp b r)

/-- The overlap penalty under a mask. -/
def overlapPenalty (T : Pairs.Idx → BitVec 1) (p s : Arr) : EReal :=
  penalty T fun i j => ∑ b : Fin 1024, overlap p s b i j

/-- The adjacency loss under a mask. -/
def adjacencyLoss (A : Pairs.Idx → BitVec 1) (p s : Arr) : EReal :=
  penalty A fun i j => ∑ b : Fin 1024, dist p s b i j

end FloorPlan

end
-- ==== Proof.Body.lean ====
/-
  The kernel's body on one tile of 8 batch rows, as four updates of four accumulators.

  A tile is eight arrays [8, 192]: near edges `x`, `y`, sizes `w`, `h` and the targets `tx`, `ty`, `tw`, `th`.
  The body adds to
    * the overlap accumulator [192, 192] : at (i, j) the sum over the tile's rows of the overlap area of rooms i, j,
    * the distance accumulator [192, 192]: at (i, j) the sum over the tile's rows of the distance of their centres,
    * the position total [1, 1]          : the sum over rooms and rows of the squared distance to the target,
    * the size total [1, 1]              : the same for the sizes.
  Each update is written once as a term of the vector operations (`side`, `centres`, `gaps`, `sqSum`, `total`),
  shown to be the printed payload, and read at an index at the ideal values, where a lane reduction is a finite sum.
-/
import proofs.«166481_j64450279244066_2_alg».proof.Proof.Gen.KernelIdeal.Skeleton
import proofs.«166481_j64450279244066_2_alg».proof.Proof.LibRank3Layout
import proofs.«166481_j64450279244066_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Rank3Layout
open scoped BigOperators

/-! ## Two more sums along one axis, at the ideal values -/

/-- The sum of an `[a, b, c]` stack along its FIRST axis is, at `(j, k)`, the sum over `i` of the entries `(i, j, k)`. -/
theorem sumFirst_apply {a b c : ℕ} (src : FVec Ideal ⟨3, ![a, b, c]⟩ .f32)
    (h : (⟨3, ![a, b, c]⟩ : Shape).Reduces [0] ⟨2, ![b, c]⟩)
    (hφ : FKind.Formats .f32) (hacc : (0x00000000#32 : BitVec 32) = 0x00000000#32) (j : Fin b) (k : Fin c) :
    multiReduction .add [0] ⟨2, ![b, c]⟩ src 0x00000000#32 h hφ hacc (ix2 j k) = ∑ i : Fin a, src (ix3 i j k) :=
  (Ideal.multiReduction_add_single src 0x00000000#32 h hφ hacc (ix2 j k)).trans
    (Finset.sum_congr rfl fun i _ => congrArg src (funext fun d => Fin.ext (by
      match d with
      | ⟨0, _⟩ => rfl
      | ⟨1, _⟩ => rfl
      | ⟨2, _⟩ => rfl)))

/-- The sum of an `[a, b]` matrix along its SECOND axis is, at row `p`, the sum over `q` of the entries `(p, q)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) :=
  (Ideal.multiReduction_add_single src 0x00000000#32 h hφ hacc (ix1 p)).trans
    (Finset.sum_congr rfl fun q _ => congrArg src (funext fun d => Fin.ext (by
      match d with
      | ⟨0, _⟩ => rfl
      | ⟨1, _⟩ => rfl)))

variable {F : FTy → Type} [FloatOps F]

/-! ## The body's values, one term each -/

/-- A vector against itself: entry (u, i, j) pairs room i's value (a column) with room j's (a row). -/
abbrev col (v : FVec F S8x192 .f32) : FVec F S8x192x192 .f32 :=
  broadcastTo S8x192x192 (shapeCast S8x192x1 v shapeCasts_S8x192_S8x192x1) broadcasts_S8x192x1_S8x192x192
abbrev row (v : FVec F S8x192 .f32) : FVec F S8x192x192 .f32 :=
  broadcastTo S8x192x192 (shapeCast S8x1x192 v shapeCasts_S8x192_S8x1x192) broadcasts_S8x1x192_S8x192x192

/-- The overlap of every pair of rooms along one side: near edges `e`, sizes `n`. -/
def side (e n : FVec F S8x192 .f32) : FVec F S8x192x192 .f32 :=
  maximumf (subf (minimumf (col (addf e n)) (row (addf e n))) (maximumf (col e) (row e)))
    (broadcast S8x192x192 (Scalar.ofBits .f32 0x00000000#32))

/-- The centres along one side: the near edge plus half the size. -/
def centres (e n : FVec F S8x192 .f32) : FVec F S8x192 .f32 :=
  addf e (mulf (broadcast S8x192 (Scalar.ofBits .f32 0x3F000000#32)) n)

/-- The gap between every pair of rooms' values. -/
def gaps (v : FVec F S8x192 .f32) : FVec F S8x192x192 .f32 := subf (col v) (row v)

/-- The distance between every pair of rooms' centres. -/
def dists (x y w h : FVec F S8x192 .f32) : FVec F S8x192x192 .f32 :=
  sqrt (addf (mulf (gaps (centres x w)) (gaps (centres x w))) (mulf (gaps (centres y h)) (gaps (centres y h))))

/-- The squared distance of every room's two components from their targets. -/
def sqSum (a ta b tb : FVec F S8x192 .f32) : FVec F S8x192 .f32 :=
  addf (mulf (subf a ta) (subf a ta)) (mulf (subf b tb) (subf b tb))

/-- A tile summed to one number: down the rows, then along the rooms. -/
def total (v : FVec F S8x192 .f32) : FVec F S1x1 .f32 :=
  shapeCast S1x1
    (multiReduction .add [1] S1
      (shapeCast S1x192 (multiReduction .add [0] S192 v 0x00000000#32 reduces_S8x192_S192 (.inl rfl) rfl) shapeCasts_S192_S1x192)
      0x00000000#32 reduces_S1x192_S1 (.inl rfl) rfl)
    shapeCasts_S1_S1x1

/-- A stack of 8 matrices summed to one matrix. -/
abbrev stackSum (v : FVec F S8x192x192 .f32) : FVec F S192x192 .f32 :=
  multiReduction .add [0] S192x192 v 0x00000000#32 reduces_S8x192x192_S192x192 (.inl rfl) rfl

/-! ## The four updates, as the printed payloads of the blocks the body loads -/

def stepOverlap (x y w h : Vec F S8x192 .f32) (acc : Vec F S192x192 .f32) : FVec F S192x192 .f32 :=
  k0_pay23 (k0_pay12 y) (k0_pay20 x w) (k0_pay21 y h) (k0_pay22 y h) acc

def stepDist (x y w h : Vec F S8x192 .f32) (acc : Vec F S192x192 .f32) : FVec F S192x192 .f32 :=
  k0_pay24 (k0_pay11 x) (k0_pay12 y) (k0_pay13 w) (k0_pay14 h) acc

def stepPos (x y tx ty : Vec F S8x192 .f32) (acc : Vec F S1x1 .f32) : FVec F S1x1 .f32 :=
  k0_pay1 (k0_pay25 (k0_pay11 x) (k0_pay15 tx)) (k0_pay26 (k0_pay12 y) (k0_pay16 ty)) acc

def stepSize (w h tw th : Vec F S8x192 .f32) (acc : Vec F S1x1 .f32) : FVec F S1x1 .f32 :=
  k0_pay2 (k0_pay13 w) (k0_pay14 h) (k0_pay17 tw) (k0_pay18 th) acc

theorem stepOverlap_eq (x y w h : Vec F S8x192 .f32) (acc : Vec F S192x192 .f32) :
    stepOverlap x y w h acc = addf acc (stackSum (mulf (side x w) (side y h))) := by
  unfold stepOverlap k0_pay23 k0_pay20 k0_pay21 k0_pay22 k0_pay19 k0_pay11 k0_pay12 k0_pay13 k0_pay14 side
  simp only [shapeCast_self]

theorem stepDist_eq (x y w h : Vec F S8x192 .f32) (acc : Vec F S192x192 .f32) :
    stepDist x y w h acc = addf acc (stackSum (dists x y w h)) := by
  unfold stepDist k0_pay24 k0_pay11 k0_pay12 k0_pay13 k0_pay14 dists gaps centres
  simp only [shapeCast_self]

theorem stepPos_eq (x y tx ty : Vec F S8x192 .f32) (acc : Vec F S1x1 .f32) :
    stepPos x y tx ty acc = addf acc (total (sqSum x tx y ty)) := by
  unfold stepPos k0_pay1 k0_pay25 k0_pay26 k0_pay11 k0_pay12 k0_pay15 k0_pay16 total sqSum
  simp only [shapeCast_self]

theorem stepSize_eq (w h tw th : Vec F S8x192 .f32) (acc : Vec F S1x1 .f32) :
    stepSize w h tw th acc = addf acc (total (sqSum w tw h th)) := by
  unfold stepSize k0_pay2 k0_pay13 k0_pay14 k0_pay17 k0_pay18 total sqSum
  simp only [shapeCast_self]

/-! ## The values at an index, at the ideal values -/

theorem col_apply (v : FVec Ideal S8x192 .f32) (u : Fin 8) (i j : Fin 192) : col v (ix3 u i j) = v (ix2 u i) := by
  unfold col
  rw [broadcastTo_ab1_abc_apply, shapeCast_ab_ab1_apply]

theorem row_apply (v : FVec Ideal S8x192 .f32) (u : Fin 8) (i j : Fin 192) : row v (ix3 u i j) = v (ix2 u j) := by
  unfold row
  rw [broadcastTo_a1c_abc_apply, shapeCast_ab_a1b_apply]

theorem side_apply (e n : FVec Ideal S8x192 .f32) (u : Fin 8) (i j : Fin 192) :
    side e n (ix3 u i j)
      = max (min (e (ix2 u i) + n (ix2 u i)) (e (ix2 u j) + n (ix2 u j)) - max (e (ix2 u i)) (e (ix2 u j)))
          (Ideal.ofBits .f32 0x00000000#32) := by
  show max (min (col (addf e n) (ix3 u i j)) (row (addf e n) (ix3 u i j)) - max (col e (ix3 u i j)) (row e (ix3 u i j))) _ = _
  rw [col_apply, row_apply, col_apply, row_apply]
  rfl

theorem centres_apply (e n : FVec Ideal S8x192 .f32) (u : Fin 8) (r : Fin 192) :
    centres e n (ix2 u r) = e (ix2 u r) + Ideal.ofBits .f32 0x3F000000#32 * n (ix2 u r) := rfl

theorem gaps_apply (v : FVec Ideal S8x192 .f32) (u : Fin 8) (i j : Fin 192) :
    gaps v (ix3 u i j) = v (ix2 u i) - v (ix2 u j) := by
  show col v (ix3 u i j) - row v (ix3 u i j) = _
  rw [col_apply, row_apply]

theorem dists_apply (x y w h : FVec Ideal S8x192 .f32) (u : Fin 8) (i j : Fin 192) :
    dists x y w h (ix3 u i j)
      = Ideal.sqrt ((centres x w (ix2 u i) - centres x w (ix2 u j)) * (centres x w (ix2 u i) - centres x w (ix2 u j))
          + (centres y h (ix2 u i) - centres y h (ix2 u j)) * (centres y h (ix2 u i) - centres y h (ix2 u j))) := by
  show Ideal.sqrt (gaps (centres x w) (ix3 u i j) * gaps (centres x w) (ix3 u i j)
      + gaps (centres y h) (ix3 u i j) * gaps (centres y h) (ix3 u i j)) = _
  rw [gaps_apply, gaps_apply]

theorem stackSum_apply (v : FVec Ideal S8x192x192 .f32) (i j : Fin 192) :
    stackSum v (ix2 i j) = ∑ u : Fin 8, v (ix3 u i j) :=
  sumFirst_apply v _ _ _ i j

theorem total_apply (v : FVec Ideal S8x192 .f32) (a b : Fin 1) :
    total v (ix2 a b) = ∑ r : Fin 192, ∑ u : Fin 8, v (ix2 u r) := by
  unfold total
  rw [shapeCast_a_1a_apply, rowSum_apply]
  refine Finset.sum_congr rfl fun r _ => ?_
  rw [shapeCast_a_1a_apply, colSum_apply]

/-! ## A tile whose rows are rows of the inputs -/

section Rows
open FloorPlan

variable (P S TP TS : Arr) (rw_ : Fin 8 → Fin 1024)

/-- The zero tile an accumulator is cleared with. -/
theorem zero_tile_apply {s : Shape} (h : s.ShapeCasts s) (i : s.Idx) :
    shapeCast s (broadcast s (Scalar.ofBits (F := Ideal) .f32 0x00000000#32)) h i = 0 := by
  rw [shapeCast_self]
  exact Ideal.ofBits_zero_f32

theorem stepOverlap_rows (x y w h : Vec Ideal S8x192 .f32)
    (hx : ∀ u r, x (ix2 u r) = P (ix3 (rw_ u) r 0)) (hy : ∀ u r, y (ix2 u r) = P (ix3 (rw_ u) r 1))
    (hw : ∀ u r, w (ix2 u r) = S (ix3 (rw_ u) r 0)) (hh : ∀ u r, h (ix2 u r) = S (ix3 (rw_ u) r 1))
    (acc : Vec Ideal S192x192 .f32) (i j : Fin 192) :
    stepOverlap x y w h acc (ix2 i j) = acc (ix2 i j) + ∑ u : Fin 8, overlap P S (rw_ u) i j := by
  rw [stepOverlap_eq]
  show acc (ix2 i j) + stackSum (F := Ideal) (mulf (side x w) (side y h)) (ix2 i j) = _
  rw [stackSum_apply]
  congr 1
  refine Finset.sum_congr rfl fun u _ => ?_
  show side (F := Ideal) x w (ix3 u i j) * side (F := Ideal) y h (ix3 u i j) = _
  rw [side_apply, side_apply, hx, hx, hw, hw, hy, hy, hh, hh, Ideal.ofBits_zero_f32]
  rfl

theorem stepDist_rows (x y w h : Vec Ideal S8x192 .f32)
    (hx : ∀ u r, x (ix2 u r) = P (ix3 (rw_ u) r 0)) (hy : ∀ u r, y (ix2 u r) = P (ix3 (rw_ u) r 1))
    (hw : ∀ u r, w (ix2 u r) = S (ix3 (rw_ u) r 0)) (hh : ∀ u r, h (ix2 u r) = S (ix3 (rw_ u) r 1))
    (acc : Vec Ideal S192x192 .f32) (i j : Fin 192) :
    stepDist x y w h acc (ix2 i j) = acc (ix2 i j) + ∑ u : Fin 8, dist P S (rw_ u) i j := by
  rw [stepDist_eq]
  show acc (ix2 i j) + stackSum (F := Ideal) (dists x y w h) (ix2 i j) = _
  rw [stackSum_apply]
  congr 1
  refine Finset.sum_congr rfl fun u _ => ?_
  rw [dists_apply, centres_apply, centres_apply, centres_apply, centres_apply, hx, hx, hw, hw, hy, hy, hh, hh]
  rfl

/-- The squared differences of a tile, summed: the rows' totals over the rooms. -/
theorem total_sqSum_rows (A TA : Arr) (a ta b tb : Vec Ideal S8x192 .f32)
    (ha : ∀ u r, a (ix2 u r) = A (ix3 (rw_ u) r 0)) (hb : ∀ u r, b (ix2 u r) = A (ix3 (rw_ u) r 1))
    (hta : ∀ u r, ta (ix2 u r) = TA (ix3 (rw_ u) r 0)) (htb : ∀ u r, tb (ix2 u r) = TA (ix3 (rw_ u) r 1)) (p q : Fin 1) :
    total (F := Ideal) (sqSum a ta b tb) (ix2 p q) = ∑ u : Fin 8, ∑ r : Fin 192, sqDiff A TA (rw_ u) r := by
  rw [total_apply, Finset.sum_comm]
  refine Finset.sum_congr rfl fun u _ => Finset.sum_congr rfl fun r _ => ?_
  show (a (ix2 u r) - ta (ix2 u r)) * (a (ix2 u r) - ta (ix2 u r)) + (b (ix2 u r) - tb (ix2 u r)) * (b (ix2 u r) - tb (ix2 u r)) = _
  rw [ha, hb, hta, htb]
  rfl

theorem stepPos_rows (x y tx ty : Vec Ideal S8x192 .f32)
    (hx : ∀ u r, x (ix2 u r) = P (ix3 (rw_ u) r 0)) (hy : ∀ u r, y (ix2 u r) = P (ix3 (rw_ u) r 1))
    (htx : ∀ u r, tx (ix2 u r) = TP (ix3 (rw_ u) r 0)) (hty : ∀ u r, ty (ix2 u r) = TP (ix3 (rw_ u) r 1))
    (acc : Vec Ideal S1x1 .f32) (p q : Fin 1) :
    stepPos x y tx ty acc (ix2 p q) = acc (ix2 p q) + ∑ u : Fin 8, ∑ r : Fin 192, sqDiff P TP (rw_ u) r := by
  rw [stepPos_eq]
  show acc (ix2 p q) + total (F := Ideal) (sqSum x tx y ty) (ix2 p q) = _
  rw [total_sqSum_rows rw_ P TP x tx y ty hx hy htx hty]

theorem stepSize_rows (w h tw th : Vec Ideal S8x192 .f32)
    (hw : ∀ u r, w (ix2 u r) = S (ix3 (rw_ u) r 0)) (hh : ∀ u r, h (ix2 u r) = S (ix3 (rw_ u) r 1))
    (htw : ∀ u r, tw (ix2 u r) = TS (ix3 (rw_ u) r 0)) (hth : ∀ u r, th (ix2 u r) = TS (ix3 (rw_ u) r 1))
    (acc : Vec Ideal S1x1 .f32) (p q : Fin 1) :
    stepSize w h tw th acc (ix2 p q) = acc (ix2 p q) + ∑ u : Fin 8, ∑ r : Fin 192, sqDiff S TS (rw_ u) r := by
  rw [stepSize_eq]
  show acc (ix2 p q) + total (F := Ideal) (sqSum w tw h th) (ix2 p q) = _
  rw [total_sqSum_rows rw_ S TS w tw h th hw hh htw hth]

end Rows

end Cert.KernelIdeal.Body

end
-- ==== Proof.Pieces.lean ====
/-
  What the body leaves behind at a grid point, case by case.

  At the first tile of a half (case A) the body clears the four accumulators and then adds the tile's terms; at every
  other tile (cases B and C) it adds the tile's terms to what the tile before left; at the last tile of a half (case C)
  it also copies the four accumulators to the four output blocks.  Each accumulator is written by one store covering
  it, whose value is the update of `Body` applied to the blocks the body loaded and to the accumulator's contents.
-/
import proofs.«166481_j64450279244066_2_alg».proof.Proof.PatchedKernelIdeal.Frame
import proofs.«166481_j64450279244066_2_alg».proof.Proof.Body
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP Cert.KernelIdeal.Body
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulators -/

theorem scratch_A_0 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = stepOverlap x0 x1 x2 x3 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S192x192) hz2, View.readCov_unit_zero (S := S192x192) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_A_1 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = stepDist x0 x1 x2 x3 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S192x192) hz2, View.readCov_unit_zero (S := S192x192) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_A_2 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = stepPos x0 x1 x4 x5 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_A_3 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 = stepSize x2 x3 x6 x7 k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_B_0 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepOverlap x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_B_1 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepDist x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_B_2 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepPos x0 x1 x4 x5 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_B_3 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepSize x2 x3 x6 x7 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_C_0 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepOverlap x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_C_1 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepDist x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_C_2 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepPos x0 x1 x4 x5 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem scratch_C_3 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = stepSize x2 x3 x6 x7 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

/-! ## The outputs at the last tile of a half -/

theorem out_C_8 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = k0_pay3 (stepOverlap x0 x1 x2 x3 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3, View.readCov_unit_zero (S := S192x192) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem out_C_9 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = k0_pay4 (stepDist x0 x1 x2 x3 xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3, View.readCov_unit_zero (S := S192x192) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem out_C_10 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = k0_pay5 (stepPos x0 x1 x4 x5 xs2) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

theorem out_C_11 (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i) (x0 : Vec F S8x192 .f32) (x1 : Vec F S8x192 .f32) (x2 : Vec F S8x192 .f32) (x3 : Vec F S8x192 .f32) (x4 : Vec F S8x192 .f32) (x5 : Vec F S8x192 .f32) (x6 : Vec F S8x192 .f32) (x7 : Vec F S8x192 .f32) (xs0 : Vec F S192x192 .f32) (xs1 : Vec F S192x192 .f32) (xs2 : Vec F S1x1 .f32) (xs3 : Vec F S1x1 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3 = k0_pay6 (stepSize x2 x3 x6 x7 xs3) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S8x192) hz2, View.ld_unit_zero (S := S192x192) hz2, View.ld_unit_zero (S := S1x1) hz2]
  rfl

end Cert.KernelIdeal.Pieces

end
-- ==== Proof.LibPairLayout.lean ====
/-
  The host's layout steps around the sums, each read at an index given by coordinates.

  Both programs split an input [n, r, 2] into its two components [n, r] by a unit slice of the last axis
  followed by a reshape; the reference stretches an [n, r] array to [n, r, r] in two steps, once through a
  column [n, r, 1] (entry (b, i, j) reads (b, i)) and once through a row [n, 1, r] (entry (b, i, j) reads
  (b, j)); a scalar is stretched to every entry; and the mask [r, r] is stretched over the batch axis through
  [1, r, r].
-/
import Idealize.ShloMosaic.Lib.Pipeline.Value
import Idealize.ShloMosaic.Lib.ValueIdx
import Idealize.ShloMosaic.Lib.ValueLayout

namespace FloorPlan.HostLayout

open Idealize.ShloMosaic Idealize.ShloMosaic.ValueIdx

variable {α : Type}

/-- Component `k` of an `[n, r, 2]` array as an `[n, r]` array: the unit slice at offset `k` of the last axis,
    reshaped. Entry `(b, q)` is the array's entry `(b, q, k)`. -/
theorem component_apply {n r : ℕ} (k : Fin 2) (x : (⟨3, ![n, r, 2]⟩ : Shape).Idx → α)
    (hs : (⟨3, ![n, r, 2]⟩ : Shape).Slices ![0, 0, k.val] ⟨3, ![n, r, 1]⟩)
    (hc : (⟨3, ![n, r, 1]⟩ : Shape).ShapeCasts ⟨2, ![n, r]⟩) (b : Fin n) (q : Fin r) :
    shapeCast ⟨2, ![n, r]⟩ (extractStridedSlice ⟨3, ![n, r, 1]⟩ ![0, 0, k.val] x hs) hc (ix2 b q) = x (ix3 b q k) := by
  rw [shapeCast_apply _ hc (ix2 b q) (ix3 b q (0 : Fin 1)) (by
    rw [Shape.rowMajor_val_three, Shape.rowMajor_val_two]
    show (b.val * r + q.val) * 1 + 0 = b.val * r + q.val
    omega)]
  refine extractStridedSlice_apply _ x hs _ _ fun a => ?_
  match a with
  | ⟨0, _⟩ => show b.val = 0 + b.val; omega
  | ⟨1, _⟩ => show q.val = 0 + q.val; omega
  | ⟨2, _⟩ => show k.val = k.val + 0; omega

/-- An `[n, r]` array stretched to `[n, r, c]` through a column `[n, r, 1]`: entry `(b, i, j)` reads `(b, i)`. -/
theorem viaColumn_apply {n r c : ℕ} (y : (⟨2, ![n, r]⟩ : Shape).Idx → α)
    (h1 : (⟨2, ![n, r]⟩ : Shape).BroadcastsInDim ⟨3, ![n, r, 1]⟩ ![0, 1])
    (h2 : (⟨3, ![n, r, 1]⟩ : Shape).BroadcastsInDim ⟨3, ![n, r, c]⟩ ![0, 1, 2]) (b : Fin n) (i : Fin r) (j : Fin c) :
    broadcastInDim ⟨3, ![n, r, c]⟩ ![0, 1, 2] h2 (broadcastInDim ⟨3, ![n, r, 1]⟩ ![0, 1] h1 y) (ix3 b i j) = y (ix2 b i) := by
  rw [broadcastInDim_apply _ h2 _ (ix3 b i j) (ix3 b i (0 : Fin 1)) (fun a => by
    match a with
    | ⟨0, _⟩ => show b.val = if n = 1 then 0 else b.val; split <;> [(have := b.isLt; omega); rfl]
    | ⟨1, _⟩ => show i.val = if r = 1 then 0 else i.val; split <;> [(have := i.isLt; omega); rfl]
    | ⟨2, _⟩ => show (0 : ℕ) = if (1 : ℕ) = 1 then 0 else j.val; rw [if_pos rfl])]
  refine broadcastInDim_apply _ h1 y _ _ fun a => ?_
  match a with
  | ⟨0, _⟩ => show b.val = if n = 1 then 0 else b.val; split <;> [(have := b.isLt; omega); rfl]
  | ⟨1, _⟩ => show i.val = if r = 1 then 0 else i.val; split <;> [(have := i.isLt; omega); rfl]

/-- An `[n, c]` array stretched to `[n, r, c]` through a row `[n, 1, c]`: entry `(b, i, j)` reads `(b, j)`. -/
theorem viaRow_apply {n r c : ℕ} (y : (⟨2, ![n, c]⟩ : Shape).Idx → α)
    (h1 : (⟨2, ![n, c]⟩ : Shape).BroadcastsInDim ⟨3, ![n, 1, c]⟩ ![0, 2])
    (h2 : (⟨3, ![n, 1, c]⟩ : Shape).BroadcastsInDim ⟨3, ![n, r, c]⟩ ![0, 1, 2]) (b : Fin n) (i : Fin r) (j : Fin c) :
    broadcastInDim ⟨3, ![n, r, c]⟩ ![0, 1, 2] h2 (broadcastInDim ⟨3, ![n, 1, c]⟩ ![0, 2] h1 y) (ix3 b i j) = y (ix2 b j) := by
  rw [broadcastInDim_apply _ h2 _ (ix3 b i j) (ix3 b (0 : Fin 1) j) (fun a => by
    match a with
    | ⟨0, _⟩ => show b.val = if n = 1 then 0 else b.val; split <;> [(have := b.isLt; omega); rfl]
    | ⟨1, _⟩ => show (0 : ℕ) = if (1 : ℕ) = 1 then 0 else i.val; rw [if_pos rfl]
    | ⟨2, _⟩ => show j.val = if c = 1 then 0 else j.val; split <;> [(have := j.isLt; omega); rfl])]
  refine broadcastInDim_apply _ h1 y _ _ fun a => ?_
  match a with
  | ⟨0, _⟩ => show b.val = if n = 1 then 0 else b.val; split <;> [(have := b.isLt; omega); rfl]
  | ⟨1, _⟩ => show j.val = if c = 1 then 0 else j.val; split <;> [(have := j.isLt; omega); rfl]

/-- A scalar stretched to any shape reads the scalar at every entry. -/
theorem splat_apply {t : Shape} (v : (⟨0, ![]⟩ : Shape).Idx → α) (h : (⟨0, ![]⟩ : Shape).BroadcastsInDim t ![]) (i : t.Idx) :
    broadcastInDim t ![] h v i = v ix0 :=
  broadcastInDim_apply _ h v i ix0 fun a => a.elim0

/-- A mask `[r, c]` stretched over `n` batch rows through `[1, r, c]`: entry `(b, i, j)` reads `(i, j)`. -/
theorem overBatch_apply {n r c : ℕ} (y : (⟨2, ![r, c]⟩ : Shape).Idx → α)
    (h1 : (⟨2, ![r, c]⟩ : Shape).BroadcastsInDim ⟨3, ![1, r, c]⟩ ![1, 2])
    (h2 : (⟨3, ![1, r, c]⟩ : Shape).BroadcastsInDim ⟨3, ![n, r, c]⟩ ![0, 1, 2]) (b : Fin n) (i : Fin r) (j : Fin c) :
    broadcastInDim ⟨3, ![n, r, c]⟩ ![0, 1, 2] h2 (broadcastInDim ⟨3, ![1, r, c]⟩ ![1, 2] h1 y) (ix3 b i j) = y (ix2 i j) := by
  rw [broadcastInDim_apply _ h2 _ (ix3 b i j) (ix3 (0 : Fin 1) i j) (fun a => by
    match a with
    | ⟨0, _⟩ => show (0 : ℕ) = if (1 : ℕ) = 1 then 0 else b.val; rw [if_pos rfl]
    | ⟨1, _⟩ => show i.val = if r = 1 then 0 else i.val; split <;> [(have := i.isLt; omega); rfl]
    | ⟨2, _⟩ => show j.val = if c = 1 then 0 else j.val; split <;> [(have := j.isLt; omega); rfl])]
  refine broadcastInDim_apply _ h1 y _ _ fun a => ?_
  match a with
  | ⟨0, _⟩ => show i.val = if r = 1 then 0 else i.val; split <;> [(have := i.isLt; omega); rfl]
  | ⟨1, _⟩ => show j.val = if c = 1 then 0 else j.val; split <;> [(have := j.isLt; omega); rfl]

end FloorPlan.HostLayout
-- ==== Proof.Blocks.lean ====
/-
  What the kernel's eight operands are, and what a tile holds.

  The host splits each input [1024, 192, 2] into its two components; these eight arrays [1024, 192] are the
  kernel's operands x, y, w, h, tx, ty, tw, th.  The grid has 128 points; at point t every operand's block is
  rows 8t … 8t + 7 of its array.  So entry (u, r) of operand k's tile at point t is entry (8t + u, r, k mod 2) of
  input k / 2.
-/
import proofs.«166481_j64450279244066_2_alg».proof.Proof.PatchedKernelIdeal.Runs
import proofs.«166481_j64450279244066_2_alg».proof.Proof.LibPairLayout
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Blocks

open Cert.KernelIdeal Cert.KernelIdeal.Gen Cert.KernelIdeal.GenP
open Idealize.ShloMosaic Idealize.ShloMosaic.TcCoe Idealize.SL.Sem Idealize.ShloMosaic.ValueIdx FloorPlan.HostLayout

variable {F : FTy → Type} [FloatOps F]
variable (m : (ℓ : Loc nD τ sig) → Buf (Elt F) ℓ)

/-- Row `u` of the tile of grid point `t` is batch row `8t + u`. -/
def rowOf (t : Fin cfg0.N) (u : Fin 8) : Fin 1024 :=
  ⟨t.val * 8 + u.val, by have := t.isLt; have : cfg0.N = 128 := N_0; have := u.isLt; omega⟩

theorem rowOf_val (t : Fin cfg0.N) (u : Fin 8) : (rowOf t u).val = t.val * 8 + u.val := rfl

/-! ## The operands: one component of one input each -/

theorem head0 (c : Dev nD) :
    V m c main_v1 = shapeCast S1024x192 (extractStridedSlice S1024x192x1 ![0, 0, 0] (m ((c : Thread nD τ).loc main_arg0))
      slices_S1024x192x2_S1024x192x1_0_0_0) shapeCasts_S1024x192x1_S1024x192 := by
  show StableHlo.after hostOps0 (fun b => m (c, b)) (Proc.devRef .tc main_v1) = _
  after_results
  rfl

theorem head1 (c : Dev nD) :
    V m c main_v3 = shapeCast S1024x192 (extractStridedSlice S1024x192x1 ![0, 0, 1] (m ((c : Thread nD τ).loc main_arg0))
      slices_S1024x192x2_S1024x192x1_0_0_1) shapeCasts_S1024x192x1_S1024x192 := by
  show StableHlo.after hostOps0 (fun b => m (c, b)) (Proc.devRef .tc main_v3) = _
  after_results
  rfl

theorem head2 (c : Dev nD) :
    V m c main_v5 = shapeCast S1024x192 (extractStridedSlice S1024x192x1 ![0, 0, 0] (m ((c : Thread nD τ).loc main_arg1))
      slices_S1024x192x2_S1024x192x1_0_0_0) shapeCasts_S1024x192x1_S1024x192 := by
  show StableHlo.after hostOps0 (fun b => m (c, b)) (Proc.devRef .tc main_v5) = _
  after_results
  rfl

theorem head3 (c : Dev nD) :
    V m c main_v7 = shapeCast S1024x192 (extractStridedSlice S1024x192x1 ![0, 0, 1] (m ((c : Thread nD τ).loc main_arg1))
      slices_S1024x192x2_S1024x192x1_0_0_1) shapeCasts_S1024x192x1_S1024x192 := by
  show StableHlo.after hostOps0 (fun b => m (c, b)) (Proc.devRef .tc main_v7) = _
  after_results
  rfl

theorem head4 (c : Dev nD) :
    V m c main_v9 = shapeCast S1024x192 (extractStridedSlice S1024x192x1 ![0, 0, 0] (m ((c : Thread nD τ).loc main_arg2))
      slices_S1024x192x2_S1024x192x1_0_0_0) shapeCasts_S1024x192x1_S1024x192 := by
  show StableHlo.after hostOps0 (fun b => m (c, b)) (Proc.devRef .tc main_v9) = _
  after_results
  rfl

theorem head5 (c : Dev nD) :
    V m c main_v11 = shapeCast S1024x192 (extractStridedSlice S1024x192x1 ![0, 0, 1] (m ((c : Thread nD τ).loc main_arg2))
      slices_S1024x192x2_S1024x192x1_0_0_1) shapeCasts_S1024x192x1_S1024x192 := by
  show StableHlo.after hostOps0 (fun b => m (c, b)) (Proc.devRef .tc main_v11) = _
  after_results
  rfl

theorem head6 (c : Dev nD) :
    V m c main_v13 = shapeCast S1024x192 (extractStridedSlice S1024x192x1 ![0, 0, 0] (m ((c : Thread nD τ).loc main_arg3))
      slices_S1024x192x2_S1024x192x1_0_0_0) shapeCasts_S1024x192x1_S1024x192 := by
  show StableHlo.after hostOps0 (fun b => m (c, b)) (Proc.devRef .tc main_v13) = _
  after_results
  rfl

theorem head7 (c : Dev nD) :
    V m c main_v15 = shapeCast S1024x192 (extractStridedSlice S1024x192x1 ![0, 0, 1] (m ((c : Thread nD τ).loc main_arg3))
      slices_S1024x192x2_S1024x192x1_0_0_1) shapeCasts_S1024x192x1_S1024x192 := by
  show StableHlo.after hostOps0 (fun b => m (c, b)) (Proc.devRef .tc main_v15) = _
  after_results
  rfl

/-! ## The blocks: point t reads rows 8t … 8t + 7 -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = t.val ∧ win0_7.index t (1 : Fin 2) = 0 :=
  (by decide +kernel : ∀ t : Fin grid0.N, _)

theorem blk0 (c : Dev nD) (t : Fin cfg0.N) (u : Fin 8) (r : Fin 192) :
    (iblk m c 0 t : Vec F S8x192 .f32) (ix2 u r) = m ((c : Thread nD τ).loc main_arg0) (ix3 (rowOf t u) r 0) := by
  unfold iblk
  rw [View.read_apply]
  show V m c main_v1 _ = _
  rw [head0]
  refine (congrArg _ ?_).trans (component_apply 0 (m ((c : Thread nD τ).loc main_arg0)) _ _ (rowOf t u) r)
  funext a
  apply Fin.ext
  obtain ⟨e0, e1⟩ := idx0 t
  match a with
  | ⟨0, _⟩ => show win0_0.index t (0 : Fin 2) * 8 + 1 * u.val = t.val * 8 + u.val; rw [e0]; omega
  | ⟨1, _⟩ => show win0_0.index t (1 : Fin 2) * 192 + 1 * r.val = r.val; rw [e1]; omega

theorem blk1 (c : Dev nD) (t : Fin cfg0.N) (u : Fin 8) (r : Fin 192) :
    (iblk m c 1 t : Vec F S8x192 .f32) (ix2 u r) = m ((c : Thread nD τ).loc main_arg0) (ix3 (rowOf t u) r 1) := by
  unfold iblk
  rw [View.read_apply]
  show V m c main_v3 _ = _
  rw [head1]
  refine (congrArg _ ?_).trans (component_apply 1 (m ((c : Thread nD τ).loc main_arg0)) _ _ (rowOf t u) r)
  funext a
  apply Fin.ext
  obtain ⟨e0, e1⟩ := idx1 t
  match a with
  | ⟨0, _⟩ => show win0_1.index t (0 : Fin 2) * 8 + 1 * u.val = t.val * 8 + u.val; rw [e0]; omega
  | ⟨1, _⟩ => show win0_1.index t (1 : Fin 2) * 192 + 1 * r.val = r.val; rw [e1]; omega

theorem blk2 (c : Dev nD) (t : Fin cfg0.N) (u : Fin 8) (r : Fin 192) :
    (iblk m c 2 t : Vec F S8x192 .f32) (ix2 u r) = m ((c : Thread nD τ).loc main_arg1) (ix3 (rowOf t u) r 0) := by
  unfold iblk
  rw [View.read_apply]
  show V m c main_v5 _ = _
  rw [head2]
  refine (congrArg _ ?_).trans (component_apply 0 (m ((c : Thread nD τ).loc main_arg1)) _ _ (rowOf t u) r)
  funext a
  apply Fin.ext
  obtain ⟨e0, e1⟩ := idx2 t
  match a with
  | ⟨0, _⟩ => show win0_2.index t (0 : Fin 2) * 8 + 1 * u.val = t.val * 8 + u.val; rw [e0]; omega
  | ⟨1, _⟩ => show win0_2.index t (1 : Fin 2) * 192 + 1 * r.val = r.val; rw [e1]; omega

theorem blk3 (c : Dev nD) (t : Fin cfg0.N) (u : Fin 8) (r : Fin 192) :
    (iblk m c 3 t : Vec F S8x192 .f32) (ix2 u r) = m ((c : Thread nD τ).loc main_arg1) (ix3 (rowOf t u) r 1) := by
  unfold iblk
  rw [View.read_apply]
  show V m c main_v7 _ = _
  rw [head3]
  refine (congrArg _ ?_).trans (component_apply 1 (m ((c : Thread nD τ).loc main_arg1)) _ _ (rowOf t u) r)
  funext a
  apply Fin.ext
  obtain ⟨e0, e1⟩ := idx3 t
  match a with
  | ⟨0, _⟩ => show win0_3.index t (0 : Fin 2) * 8 + 1 * u.val = t.val * 8 + u.val; rw [e0]; omega
  | ⟨1, _⟩ => show win0_3.index t (1 : Fin 2) * 192 + 1 * r.val = r.val; rw [e1]; omega

theorem blk4 (c : Dev nD) (t : Fin cfg0.N) (u : Fin 8) (r : Fin 192) :
    (iblk m c 4 t : Vec F S8x192 .f32) (ix2 u r) = m ((c : Thread nD τ).loc main_arg2) (ix3 (rowOf t u) r 0) := by
  unfold iblk
  rw [View.read_apply]
  show V m c main_v9 _ = _
  rw [head4]
  refine (congrArg _ ?_).trans (component_apply 0 (m ((c : Thread nD τ).loc main_arg2)) _ _ (rowOf t u) r)
  funext a
  apply Fin.ext
  obtain ⟨e0, e1⟩ := idx4 t
  match a with
  | ⟨0, _⟩ => show win0_4.index t (0 : Fin 2) * 8 + 1 * u.val = t.val * 8 + u.val; rw [e0]; omega
  | ⟨1, _⟩ => show win0_4.index t (1 : Fin 2) * 192 + 1 * r.val = r.val; rw [e1]; omega

theorem blk5 (c : Dev nD) (t : Fin cfg0.N) (u : Fin 8) (r : Fin 192) :
    (iblk m c 5 t : Vec F S8x192 .f32) (ix2 u r) = m ((c : Thread nD τ).loc main_arg2) (ix3 (rowOf t u) r 1) := by
  unfold iblk
  rw [View.read_apply]
  show V m c main_v11 _ = _
  rw [head5]
  refine (congrArg _ ?_).trans (component_apply 1 (m ((c : Thread nD τ).loc main_arg2)) _ _ (rowOf t u) r)
  funext a
  apply Fin.ext
  obtain ⟨e0, e1⟩ := idx5 t
  match a with
  | ⟨0, _⟩ => show win0_5.index t (0 : Fin 2) * 8 + 1 * u.val = t.val * 8 + u.val; rw [e0]; omega
  | ⟨1, _⟩ => show win0_5.index t (1 : Fin 2) * 192 + 1 * r.val = r.val; rw [e1]; omega

theorem blk6 (c : Dev nD) (t : Fin cfg0.N) (u : Fin 8) (r : Fin 192) :
    (iblk m c 6 t : Vec F S8x192 .f32) (ix2 u r) = m ((c : Thread nD τ).loc main_arg3) (ix3 (rowOf t u) r 0) := by
  unfold iblk
  rw [View.read_apply]
  show V m c main_v13 _ = _
  rw [head6]
  refine (congrArg _ ?_).trans (component_apply 0 (m ((c : Thread nD τ).loc main_arg3)) _ _ (rowOf t u) r)
  funext a
  apply Fin.ext
  obtain ⟨e0, e1⟩ := idx6 t
  match a with
  | ⟨0, _⟩ => show win0_6.index t (0 : Fin 2) * 8 + 1 * u.val = t.val * 8 + u.val; rw [e0]; omega
  | ⟨1, _⟩ => show win0_6.index t (1 : Fin 2) * 192 + 1 * r.val = r.val; rw [e1]; omega

theorem blk7 (c : Dev nD) (t : Fin cfg0.N) (u : Fin 8) (r : Fin 192) :
    (iblk m c 7 t : Vec F S8x192 .f32) (ix2 u r) = m ((c : Thread nD τ).loc main_arg3) (ix3 (rowOf t u) r 1) := by
  unfold iblk
  rw [View.read_apply]
  show V m c main_v15 _ = _
  rw [head7]
  refine (congrArg _ ?_).trans (component_apply 1 (m ((c : Thread nD τ).loc main_arg3)) _ _ (rowOf t u) r)
  funext a
  apply Fin.ext
  obtain ⟨e0, e1⟩ := idx7 t
  match a with
  | ⟨0, _⟩ => show win0_7.index t (0 : Fin 2) * 8 + 1 * u.val = t.val * 8 + u.val; rw [e0]; omega
  | ⟨1, _⟩ => show win0_7.index t (1 : Fin 2) * 192 + 1 * r.val = r.val; rw [e1]; omega

end Cert.KernelIdeal.Blocks

end
-- ==== Proof.Accum.lean ====
/-
  The four accumulators over the grid.

  The grid's 128 points are the 128 tiles of 8 rows, in order; points 0 … 63 belong to the first half of the batch,
  64 … 127 to the second.  At a point whose number is a multiple of 64 the accumulators restart from zero and take
  the tile's terms; at every other point they add the tile's terms to what the point before left.  So after point
  64c + 63 an accumulator holds the sum over the 64 tiles of half c, and the two halves together give the sum over
  all 1024 rows.
-/
import proofs.«166481_j64450279244066_2_alg».proof.Proof.Pieces
import proofs.«166481_j64450279244066_2_alg».proof.Proof.Blocks
import proofs.«166481_j64450279244066_2_alg».proof.Proof.Spec

set_option maxRecDepth 16384

noncomputable section

namespace Cert.KernelIdeal.Accum

open Cert.KernelIdeal Cert.KernelIdeal.Gen Cert.KernelIdeal.GenP Cert.KernelIdeal.Body Cert.KernelIdeal.Pieces Cert.KernelIdeal.Blocks
open Idealize.ShloMosaic Idealize.ShloMosaic.TcCoe Idealize.SL.Sem Idealize.ShloMosaic.ValueIdx FloorPlan
open Idealize.ShloMosaic.Pipeline (Dat)
open scoped BigOperators

/-! ## One step of each accumulator, at any float instance -/

section Steps
variable {F : FTy → Type} [FloatOps F]
variable (m : (ℓ : Loc nD τ sig) → Buf (Elt F) ℓ)

theorem acc0_first (c : Dev nD) (t : Fin cfg0.N) (h0 : t.val % 64 = 0) :
    (outsAt0 m c t.val t.isLt).2.2.2.2.1 = stepOverlap (iblk m c 0 t) (iblk m c 1 t) (iblk m c 2 t) (iblk m c 3 t) k0_pay7 := by
  have h1 : ¬t.val % 64 = 63 := by omega
  rw [outsAt0_A m c t h0 h1]
  dsimp only
  exact scratch_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem acc0_next (c : Dev nD) (t : Fin cfg0.N) (h0 : ¬t.val % 64 = 0) :
    (outsAt0 m c t.val t.isLt).2.2.2.2.1 = stepOverlap (iblk m c 0 t) (iblk m c 1 t) (iblk m c 2 t) (iblk m c 3 t) (outsAt0 m c (t.val - 1) (Nat.lt_of_le_of_lt (Nat.sub_le _ _) t.isLt)).2.2.2.2.1 := by
  by_cases h1 : t.val % 64 = 63
  · rw [outsAt0_C m c t h0 h1]
    dsimp only
    exact scratch_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · rw [outsAt0_B m c t h0 h1]
    dsimp only
    exact scratch_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

theorem out8_last (c : Dev nD) (t : Fin cfg0.N) (h1 : t.val % 64 = 63) :
    (outsAt0 m c t.val t.isLt).1 = k0_pay3 ((outsAt0 m c t.val t.isLt).2.2.2.2.1) := by
  have h0 : ¬t.val % 64 = 0 := by omega
  rw [outsAt0_C m c t h0 h1]
  dsimp only
  rw [out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratch_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]

theorem acc1_first (c : Dev nD) (t : Fin cfg0.N) (h0 : t.val % 64 = 0) :
    (outsAt0 m c t.val t.isLt).2.2.2.2.2.1 = stepDist (iblk m c 0 t) (iblk m c 1 t) (iblk m c 2 t) (iblk m c 3 t) k0_pay8 := by
  have h1 : ¬t.val % 64 = 63 := by omega
  rw [outsAt0_A m c t h0 h1]
  dsimp only
  exact scratch_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem acc1_next (c : Dev nD) (t : Fin cfg0.N) (h0 : ¬t.val % 64 = 0) :
    (outsAt0 m c t.val t.isLt).2.2.2.2.2.1 = stepDist (iblk m c 0 t) (iblk m c 1 t) (iblk m c 2 t) (iblk m c 3 t) (outsAt0 m c (t.val - 1) (Nat.lt_of_le_of_lt (Nat.sub_le _ _) t.isLt)).2.2.2.2.2.1 := by
  by_cases h1 : t.val % 64 = 63
  · rw [outsAt0_C m c t h0 h1]
    dsimp only
    exact scratch_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · rw [outsAt0_B m c t h0 h1]
    dsimp only
    exact scratch_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

theorem out9_last (c : Dev nD) (t : Fin cfg0.N) (h1 : t.val % 64 = 63) :
    (outsAt0 m c t.val t.isLt).2.1 = k0_pay4 ((outsAt0 m c t.val t.isLt).2.2.2.2.2.1) := by
  have h0 : ¬t.val % 64 = 0 := by omega
  rw [outsAt0_C m c t h0 h1]
  dsimp only
  rw [out_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratch_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]

theorem acc2_first (c : Dev nD) (t : Fin cfg0.N) (h0 : t.val % 64 = 0) :
    (outsAt0 m c t.val t.isLt).2.2.2.2.2.2.1 = stepPos (iblk m c 0 t) (iblk m c 1 t) (iblk m c 4 t) (iblk m c 5 t) k0_pay9 := by
  have h1 : ¬t.val % 64 = 63 := by omega
  rw [outsAt0_A m c t h0 h1]
  dsimp only
  exact scratch_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem acc2_next (c : Dev nD) (t : Fin cfg0.N) (h0 : ¬t.val % 64 = 0) :
    (outsAt0 m c t.val t.isLt).2.2.2.2.2.2.1 = stepPos (iblk m c 0 t) (iblk m c 1 t) (iblk m c 4 t) (iblk m c 5 t) (outsAt0 m c (t.val - 1) (Nat.lt_of_le_of_lt (Nat.sub_le _ _) t.isLt)).2.2.2.2.2.2.1 := by
  by_cases h1 : t.val % 64 = 63
  · rw [outsAt0_C m c t h0 h1]
    dsimp only
    exact scratch_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · rw [outsAt0_B m c t h0 h1]
    dsimp only
    exact scratch_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

theorem out10_last (c : Dev nD) (t : Fin cfg0.N) (h1 : t.val % 64 = 63) :
    (outsAt0 m c t.val t.isLt).2.2.1 = k0_pay5 ((outsAt0 m c t.val t.isLt).2.2.2.2.2.2.1) := by
  have h0 : ¬t.val % 64 = 0 := by omega
  rw [outsAt0_C m c t h0 h1]
  dsimp only
  rw [out_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratch_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]

theorem acc3_first (c : Dev nD) (t : Fin cfg0.N) (h0 : t.val % 64 = 0) :
    (outsAt0 m c t.val t.isLt).2.2.2.2.2.2.2 = stepSize (iblk m c 2 t) (iblk m c 3 t) (iblk m c 6 t) (iblk m c 7 t) k0_pay10 := by
  have h1 : ¬t.val % 64 = 63 := by omega
  rw [outsAt0_A m c t h0 h1]
  dsimp only
  exact scratch_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem acc3_next (c : Dev nD) (t : Fin cfg0.N) (h0 : ¬t.val % 64 = 0) :
    (outsAt0 m c t.val t.isLt).2.2.2.2.2.2.2 = stepSize (iblk m c 2 t) (iblk m c 3 t) (iblk m c 6 t) (iblk m c 7 t) (outsAt0 m c (t.val - 1) (Nat.lt_of_le_of_lt (Nat.sub_le _ _) t.isLt)).2.2.2.2.2.2.2 := by
  by_cases h1 : t.val % 64 = 63
  · rw [outsAt0_C m c t h0 h1]
    dsimp only
    exact scratch_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2
  · rw [outsAt0_B m c t h0 h1]
    dsimp only
    exact scratch_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2

theorem out11_last (c : Dev nD) (t : Fin cfg0.N) (h1 : t.val % 64 = 63) :
    (outsAt0 m c t.val t.isLt).2.2.2.1 = k0_pay6 ((outsAt0 m c t.val t.isLt).2.2.2.2.2.2.2) := by
  have h0 : ¬t.val % 64 = 0 := by omega
  rw [outsAt0_C m c t h0 h1]
  dsimp only
  rw [out_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2,
    scratch_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
end Steps

/-! ## The accumulators at the ideal values -/

section Ideal
variable (m : (ℓ : Loc nD τ sig) → Buf (Elt Ideal) ℓ)

/-- The four float inputs as the device holds them. -/
abbrev inP (c : Dev nD) : Arr := m ((c : Thread nD τ).loc main_arg0)
abbrev inS (c : Dev nD) : Arr := m ((c : Thread nD τ).loc main_arg1)
abbrev inTP (c : Dev nD) : Arr := m ((c : Thread nD τ).loc main_arg2)
abbrev inTS (c : Dev nD) : Arr := m ((c : Thread nD τ).loc main_arg3)

/-- Accumulator 0 after grid point `n`, at the pair (i, j) (zero past the grid). -/
def acc0At (c : Dev nD) (i j : Fin 192) (n : ℕ) : EReal :=
  if h : n < cfg0.N then (outsAt0 m c n h).2.2.2.2.1 (ix2 i j) else 0

theorem acc0At_of_lt (c : Dev nD) (i j : Fin 192) (n : ℕ) (h : n < cfg0.N) :
    acc0At m c i j n = (outsAt0 m c n h).2.2.2.2.1 (ix2 i j) := dif_pos h

/-- The two halves' final values of accumulator 0 add up to the sum over all 1024 rows. -/
theorem acc0_halves (c : Dev nD) (i j : Fin 192) :
    ∑ k : Fin 2, acc0At m c i j (k.val * 64 + 63) = ∑ b : Fin 1024, (fun b => overlap (inP m c) (inS m c) b i j) b := by
  have hN : cfg0.N = 128 := N_0
  refine halves_total (fun b => overlap (inP m c) (inS m c) b i j) (acc0At m c i j ) (fun n hn hmod => ?_) (fun n hn hmod => ?_)
  · have hn' : n < cfg0.N := by omega
    rw [acc0At_of_lt m c i j n hn', acc0_first m c ⟨n, hn'⟩ hmod, stepOverlap_rows (inP m c) (inS m c) (rowOf ⟨n, hn'⟩) _ _ _ _ (blk0 m c ⟨n, hn'⟩) (blk1 m c ⟨n, hn'⟩) (blk2 m c ⟨n, hn'⟩) (blk3 m c ⟨n, hn'⟩)]
    rw [show (k0_pay7 (F := Ideal)) (ix2 i j) = 0 from zero_tile_apply _ _, zero_add]
    refine Finset.sum_congr rfl fun u _ => ?_
    exact (ext_of_lt (fun b => overlap (inP m c) (inS m c) b i j) (rowOf ⟨n, hn'⟩ u).isLt).symm
  · have hn1 : n + 1 < cfg0.N := by omega
    have hn' : n < cfg0.N := by omega
    rw [acc0At_of_lt m c i j (n + 1) hn1, acc0At_of_lt m c i j n hn', acc0_next m c ⟨n + 1, hn1⟩ hmod, stepOverlap_rows (inP m c) (inS m c) (rowOf ⟨n + 1, hn1⟩) _ _ _ _ (blk0 m c ⟨n + 1, hn1⟩) (blk1 m c ⟨n + 1, hn1⟩) (blk2 m c ⟨n + 1, hn1⟩) (blk3 m c ⟨n + 1, hn1⟩)]
    refine congrArg₂ (· + ·) rfl (Finset.sum_congr rfl fun u _ => ?_)
    exact (ext_of_lt (fun b => overlap (inP m c) (inS m c) b i j) (rowOf ⟨n + 1, hn1⟩ u).isLt).symm

/-- Accumulator 1 after grid point `n`, at the pair (i, j) (zero past the grid). -/
def acc1At (c : Dev nD) (i j : Fin 192) (n : ℕ) : EReal :=
  if h : n < cfg0.N then (outsAt0 m c n h).2.2.2.2.2.1 (ix2 i j) else 0

theorem acc1At_of_lt (c : Dev nD) (i j : Fin 192) (n : ℕ) (h : n < cfg0.N) :
    acc1At m c i j n = (outsAt0 m c n h).2.2.2.2.2.1 (ix2 i j) := dif_pos h

/-- The two halves' final values of accumulator 1 add up to the sum over all 1024 rows. -/
theorem acc1_halves (c : Dev nD) (i j : Fin 192) :
    ∑ k : Fin 2, acc1At m c i j (k.val * 64 + 63) = ∑ b : Fin 1024, (fun b => dist (inP m c) (inS m c) b i j) b := by
  have hN : cfg0.N = 128 := N_0
  refine halves_total (fun b => dist (inP m c) (inS m c) b i j) (acc1At m c i j ) (fun n hn hmod => ?_) (fun n hn hmod => ?_)
  · have hn' : n < cfg0.N := by omega
    rw [acc1At_of_lt m c i j n hn', acc1_first m c ⟨n, hn'⟩ hmod, stepDist_rows (inP m c) (inS m c) (rowOf ⟨n, hn'⟩) _ _ _ _ (blk0 m c ⟨n, hn'⟩) (blk1 m c ⟨n, hn'⟩) (blk2 m c ⟨n, hn'⟩) (blk3 m c ⟨n, hn'⟩)]
    rw [show (k0_pay8 (F := Ideal)) (ix2 i j) = 0 from zero_tile_apply _ _, zero_add]
    refine Finset.sum_congr rfl fun u _ => ?_
    exact (ext_of_lt (fun b => dist (inP m c) (inS m c) b i j) (rowOf ⟨n, hn'⟩ u).isLt).symm
  · have hn1 : n + 1 < cfg0.N := by omega
    have hn' : n < cfg0.N := by omega
    rw [acc1At_of_lt m c i j (n + 1) hn1, acc1At_of_lt m c i j n hn', acc1_next m c ⟨n + 1, hn1⟩ hmod, stepDist_rows (inP m c) (inS m c) (rowOf ⟨n + 1, hn1⟩) _ _ _ _ (blk0 m c ⟨n + 1, hn1⟩) (blk1 m c ⟨n + 1, hn1⟩) (blk2 m c ⟨n + 1, hn1⟩) (blk3 m c ⟨n + 1, hn1⟩)]
    refine congrArg₂ (· + ·) rfl (Finset.sum_congr rfl fun u _ => ?_)
    exact (ext_of_lt (fun b => dist (inP m c) (inS m c) b i j) (rowOf ⟨n + 1, hn1⟩ u).isLt).symm

/-- Accumulator 2 after grid point `n` (zero past the grid). -/
def acc2At (c : Dev nD) (n : ℕ) : EReal :=
  if h : n < cfg0.N then (outsAt0 m c n h).2.2.2.2.2.2.1 (ix2 (0 : Fin 1) (0 : Fin 1)) else 0

theorem acc2At_of_lt (c : Dev nD) (n : ℕ) (h : n < cfg0.N) :
    acc2At m c n = (outsAt0 m c n h).2.2.2.2.2.2.1 (ix2 (0 : Fin 1) (0 : Fin 1)) := dif_pos h

/-- The two halves' final values of accumulator 2 add up to the sum over all 1024 rows. -/
theorem acc2_halves (c : Dev nD) :
    ∑ k : Fin 2, acc2At m c (k.val * 64 + 63) = ∑ b : Fin 1024, (fun b => ∑ r : Fin 192, sqDiff (inP m c) (inTP m c) b r) b := by
  have hN : cfg0.N = 128 := N_0
  refine halves_total (fun b => ∑ r : Fin 192, sqDiff (inP m c) (inTP m c) b r) (acc2At m c ) (fun n hn hmod => ?_) (fun n hn hmod => ?_)
  · have hn' : n < cfg0.N := by omega
    rw [acc2At_of_lt m c n hn', acc2_first m c ⟨n, hn'⟩ hmod, stepPos_rows (inP m c) (inTP m c) (rowOf ⟨n, hn'⟩) _ _ _ _ (blk0 m c ⟨n, hn'⟩) (blk1 m c ⟨n, hn'⟩) (blk4 m c ⟨n, hn'⟩) (blk5 m c ⟨n, hn'⟩)]
    rw [show (k0_pay9 (F := Ideal)) (ix2 (0 : Fin 1) (0 : Fin 1)) = 0 from zero_tile_apply _ _, zero_add]
    refine Finset.sum_congr rfl fun u _ => ?_
    exact (ext_of_lt (fun b => ∑ r : Fin 192, sqDiff (inP m c) (inTP m c) b r) (rowOf ⟨n, hn'⟩ u).isLt).symm
  · have hn1 : n + 1 < cfg0.N := by omega
    have hn' : n < cfg0.N := by omega
    rw [acc2At_of_lt m c (n + 1) hn1, acc2At_of_lt m c n hn', acc2_next m c ⟨n + 1, hn1⟩ hmod, stepPos_rows (inP m c) (inTP m c) (rowOf ⟨n + 1, hn1⟩) _ _ _ _ (blk0 m c ⟨n + 1, hn1⟩) (blk1 m c ⟨n + 1, hn1⟩) (blk4 m c ⟨n + 1, hn1⟩) (blk5 m c ⟨n + 1, hn1⟩)]
    refine congrArg₂ (· + ·) rfl (Finset.sum_congr rfl fun u _ => ?_)
    exact (ext_of_lt (fun b => ∑ r : Fin 192, sqDiff (inP m c) (inTP m c) b r) (rowOf ⟨n + 1, hn1⟩ u).isLt).symm

/-- Accumulator 3 after grid point `n` (zero past the grid). -/
def acc3At (c : Dev nD) (n : ℕ) : EReal :=
  if h : n < cfg0.N then (outsAt0 m c n h).2.2.2.2.2.2.2 (ix2 (0 : Fin 1) (0 : Fin 1)) else 0

theorem acc3At_of_lt (c : Dev nD) (n : ℕ) (h : n < cfg0.N) :
    acc3At m c n = (outsAt0 m c n h).2.2.2.2.2.2.2 (ix2 (0 : Fin 1) (0 : Fin 1)) := dif_pos h

/-- The two halves' final values of accumulator 3 add up to the sum over all 1024 rows. -/
theorem acc3_halves (c : Dev nD) :
    ∑ k : Fin 2, acc3At m c (k.val * 64 + 63) = ∑ b : Fin 1024, (fun b => ∑ r : Fin 192, sqDiff (inS m c) (inTS m c) b r) b := by
  have hN : cfg0.N = 128 := N_0
  refine halves_total (fun b => ∑ r : Fin 192, sqDiff (inS m c) (inTS m c) b r) (acc3At m c ) (fun n hn hmod => ?_) (fun n hn hmod => ?_)
  · have hn' : n < cfg0.N := by omega
    rw [acc3At_of_lt m c n hn', acc3_first m c ⟨n, hn'⟩ hmod, stepSize_rows (inS m c) (inTS m c) (rowOf ⟨n, hn'⟩) _ _ _ _ (blk2 m c ⟨n, hn'⟩) (blk3 m c ⟨n, hn'⟩) (blk6 m c ⟨n, hn'⟩) (blk7 m c ⟨n, hn'⟩)]
    rw [show (k0_pay10 (F := Ideal)) (ix2 (0 : Fin 1) (0 : Fin 1)) = 0 from zero_tile_apply _ _, zero_add]
    refine Finset.sum_congr rfl fun u _ => ?_
    exact (ext_of_lt (fun b => ∑ r : Fin 192, sqDiff (inS m c) (inTS m c) b r) (rowOf ⟨n, hn'⟩ u).isLt).symm
  · have hn1 : n + 1 < cfg0.N := by omega
    have hn' : n < cfg0.N := by omega
    rw [acc3At_of_lt m c (n + 1) hn1, acc3At_of_lt m c n hn', acc3_next m c ⟨n + 1, hn1⟩ hmod, stepSize_rows (inS m c) (inTS m c) (rowOf ⟨n + 1, hn1⟩) _ _ _ _ (blk2 m c ⟨n + 1, hn1⟩) (blk3 m c ⟨n + 1, hn1⟩) (blk6 m c ⟨n + 1, hn1⟩) (blk7 m c ⟨n + 1, hn1⟩)]
    refine congrArg₂ (· + ·) rfl (Finset.sum_congr rfl fun u _ => ?_)
    exact (ext_of_lt (fun b => ∑ r : Fin 192, sqDiff (inS m c) (inTS m c) b r) (rowOf ⟨n + 1, hn1⟩ u).isLt).symm

end Ideal

end Cert.KernelIdeal.Accum

end
-- ==== Proof.Final.lean ====
/-
  The kernel's four output arrays after the run.

  Each output has one block per half of the batch, written back once, at the half's last tile, with a copy of the
  matching accumulator.  So entry (k, ·, ·) of an output array is the accumulator after tile 64k + 63, and summing the
  two halves gives the sum over all 1024 rows (`Accum`).
-/
import proofs.«166481_j64450279244066_2_alg».proof.Proof.Accum
import Idealize.ShloMosaic.Lib.ValueLayout

set_option maxRecDepth 16384

noncomputable section

namespace Cert.KernelIdeal.Final

open Cert.KernelIdeal Cert.KernelIdeal.Gen Cert.KernelIdeal.GenP Cert.KernelIdeal.Body Cert.KernelIdeal.Accum
open Idealize.ShloMosaic Idealize.ShloMosaic.TcCoe Idealize.SL.Sem Idealize.ShloMosaic.ValueIdx FloorPlan
open Idealize.ShloMosaic.Pipeline (Dat)
open scoped BigOperators

variable (m : (ℓ : Loc nD τ sig) → Buf (Elt Ideal) ℓ)

/-! ## Output 8 -/

theorem idxO8 : ∀ t : Fin cfg0.N, win0_8.index t (0 : Fin 3) = t.val / 64 ∧ win0_8.index t (1 : Fin 3) = 0
    ∧ win0_8.index t (2 : Fin 3) = 0 :=
  (by decide +kernel : ∀ t : Fin grid0.N, _)

/-- What output 8's array ends holding: at half `k`, accumulator 0 after the half's last tile. -/
def G8 (c : Dev nD) : S2x192x192.Idx → EReal :=
  fun q => acc0At m c (q 1) (q 2) ((q 0).val * 64 + 63)

theorem mem_blk8 (t : Fin cfg0.N) (q : S2x192x192.Idx) :
    q ∈ ((cfg0.win 8).blk t).view.set ↔ ∀ a : Fin 3, win0_8.index t a * S1x192x192.size a ≤ (q a).val
      ∧ (q a).val < win0_8.index t a * S1x192x192.size a + S1x192x192.size a := by
  show q ∈ ((View.whole main_v16_0).slice (win0_8.rect t)).set ↔ _
  rw [View.set_slice_whole, Rect.mem_set_unit]
  exact Iff.rfl

/-- Where entry (u, i, j) of the block of a half's last tile sits in the array: half `t / 64`, at (i, j). -/
theorem emb8 (t : Fin cfg0.N) (h63 : t.val % 64 = 63) (u : Fin 1) (i j : Fin 192) :
    ((((cfg0.win 8).blk t).view.emb (ix3 u i j)) 0).val * 64 + 63 = t.val
    ∧ (((cfg0.win 8).blk t).view.emb (ix3 u i j)) 1 = i ∧ (((cfg0.win 8).blk t).view.emb (ix3 u i j)) 2 = j := by
  obtain ⟨e0, e1, e2⟩ := idxO8 t
  have hu : u.val = 0 := by omega
  refine ⟨?_, Fin.ext ?_, Fin.ext ?_⟩
  · show (win0_8.index t (0 : Fin 3) * 1 + 1 * u.val) * 64 + 63 = t.val
    rw [e0]; omega
  · show win0_8.index t (1 : Fin 3) * 192 + 1 * i.val = i.val
    rw [e1]; omega
  · show win0_8.index t (2 : Fin 3) * 192 + 1 * j.val = j.val
    rw [e2]; omega

/-- The one write-back of a half, at its last tile, writes the accumulator. -/
theorem flushed8 (c : Dev nD) (t : Fin cfg0.N) (hf : (cfg0.win 8).flush t = true) :
    (dats m 0 c).flushed 8 t = ((cfg0.win 8).blk t).view.read (Elt Ideal) (G8 m c) := by
  have h63 : t.val % 64 = 63 := (flush0_8 t).mp hf
  show (cfg0.win 8).cut (grid0.coords t) ((dats m 0 c).after 8 t) = _
  rw [after0_8, out8_last m c t h63]
  funext y
  obtain ⟨u, i, j, rfl⟩ : ∃ (u : Fin 1) (i : Fin 192) (j : Fin 192), y = ix3 u i j := ⟨y 0, y 1, y 2, eq_ix3 y⟩
  show k0_pay3 ((outsAt0 m c t.val t.isLt).2.2.2.2.1) (ix3 u i j) = G8 m c (((cfg0.win 8).blk t).view.emb (ix3 u i j))
  obtain ⟨E0, E1, E2⟩ := emb8 t h63 u i j
  unfold G8
  rw [E1, E2, E0, acc0At_of_lt m c i j t.val t.isLt]
  exact shapeCast_ab_1ab_apply _ _ u i j

/-- Every entry of the array is in the block of its half's last tile. -/
theorem cover8 (q : S2x192x192.Idx) : ∃ t : Fin cfg0.N, (cfg0.win 8).flush t = true ∧ q ∈ ((cfg0.win 8).blk t).view.set := by
  have hN : cfg0.N = 128 := N_0
  have hq0 : (q 0).val < 2 := (q 0).isLt
  have hq1 : (q 1).val < 192 := (q 1).isLt
  have hq2 : (q 2).val < 192 := (q 2).isLt
  refine ⟨⟨(q 0).val * 64 + 63, by omega⟩, (flush0_8 _).mpr (by show ((q 0).val * 64 + 63) % 64 = 63; omega), ?_⟩
  rw [mem_blk8]
  obtain ⟨e0, e1, e2⟩ := idxO8 ⟨(q 0).val * 64 + 63, by omega⟩
  intro a
  match a with
  | ⟨0, _⟩ =>
    show win0_8.index _ (0 : Fin 3) * 1 ≤ (q 0).val ∧ (q 0).val < win0_8.index _ (0 : Fin 3) * 1 + 1
    rw [e0]; show ((q 0).val * 64 + 63) / 64 * 1 ≤ (q 0).val ∧ (q 0).val < ((q 0).val * 64 + 63) / 64 * 1 + 1; omega
  | ⟨1, _⟩ =>
    show win0_8.index _ (1 : Fin 3) * 192 ≤ (q 1).val ∧ (q 1).val < win0_8.index _ (1 : Fin 3) * 192 + 192
    rw [e1]; omega
  | ⟨2, _⟩ =>
    show win0_8.index _ (2 : Fin 3) * 192 ≤ (q 2).val ∧ (q 2).val < win0_8.index _ (2 : Fin 3) * 192 + 192
    rw [e2]; omega

theorem final8 (c : Dev nD) : (dats m 0 c).arrAt 8 cfg0.N = G8 m c :=
  (dats m 0 c).arrAt_eq_of_cover 8 (G8 m c) (flushed8 m c) (cover8)

/-- The two halves of output 8 at a pair of rooms: the sum over all 1024 rows. -/
theorem halves8 (c : Dev nD) (i j : Fin 192) :
    ∑ k : Fin 2, G8 m c (ix3 k i j) = ∑ b : Fin 1024, (fun b => overlap (inP m c) (inS m c) b i j) b :=
  acc0_halves m c i j

/-! ## Output 9 -/

theorem idxO9 : ∀ t : Fin cfg0.N, win0_9.index t (0 : Fin 3) = t.val / 64 ∧ win0_9.index t (1 : Fin 3) = 0
    ∧ win0_9.index t (2 : Fin 3) = 0 :=
  (by decide +kernel : ∀ t : Fin grid0.N, _)

/-- What output 9's array ends holding: at half `k`, accumulator 1 after the half's last tile. -/
def G9 (c : Dev nD) : S2x192x192.Idx → EReal :=
  fun q => acc1At m c (q 1) (q 2) ((q 0).val * 64 + 63)

theorem mem_blk9 (t : Fin cfg0.N) (q : S2x192x192.Idx) :
    q ∈ ((cfg0.win 9).blk t).view.set ↔ ∀ a : Fin 3, win0_9.index t a * S1x192x192.size a ≤ (q a).val
      ∧ (q a).val < win0_9.index t a * S1x192x192.size a + S1x192x192.size a := by
  show q ∈ ((View.whole main_v16_1).slice (win0_9.rect t)).set ↔ _
  rw [View.set_slice_whole, Rect.mem_set_unit]
  exact Iff.rfl

/-- Where entry (u, i, j) of the block of a half's last tile sits in the array: half `t / 64`, at (i, j). -/
theorem emb9 (t : Fin cfg0.N) (h63 : t.val % 64 = 63) (u : Fin 1) (i j : Fin 192) :
    ((((cfg0.win 9).blk t).view.emb (ix3 u i j)) 0).val * 64 + 63 = t.val
    ∧ (((cfg0.win 9).blk t).view.emb (ix3 u i j)) 1 = i ∧ (((cfg0.win 9).blk t).view.emb (ix3 u i j)) 2 = j := by
  obtain ⟨e0, e1, e2⟩ := idxO9 t
  have hu : u.val = 0 := by omega
  refine ⟨?_, Fin.ext ?_, Fin.ext ?_⟩
  · show (win0_9.index t (0 : Fin 3) * 1 + 1 * u.val) * 64 + 63 = t.val
    rw [e0]; omega
  · show win0_9.index t (1 : Fin 3) * 192 + 1 * i.val = i.val
    rw [e1]; omega
  · show win0_9.index t (2 : Fin 3) * 192 + 1 * j.val = j.val
    rw [e2]; omega

/-- The one write-back of a half, at its last tile, writes the accumulator. -/
theorem flushed9 (c : Dev nD) (t : Fin cfg0.N) (hf : (cfg0.win 9).flush t = true) :
    (dats m 0 c).flushed 9 t = ((cfg0.win 9).blk t).view.read (Elt Ideal) (G9 m c) := by
  have h63 : t.val % 64 = 63 := (flush0_9 t).mp hf
  show (cfg0.win 9).cut (grid0.coords t) ((dats m 0 c).after 9 t) = _
  rw [after0_9, out9_last m c t h63]
  funext y
  obtain ⟨u, i, j, rfl⟩ : ∃ (u : Fin 1) (i : Fin 192) (j : Fin 192), y = ix3 u i j := ⟨y 0, y 1, y 2, eq_ix3 y⟩
  show k0_pay4 ((outsAt0 m c t.val t.isLt).2.2.2.2.2.1) (ix3 u i j) = G9 m c (((cfg0.win 9).blk t).view.emb (ix3 u i j))
  obtain ⟨E0, E1, E2⟩ := emb9 t h63 u i j
  unfold G9
  rw [E1, E2, E0, acc1At_of_lt m c i j t.val t.isLt]
  exact shapeCast_ab_1ab_apply _ _ u i j

/-- Every entry of the array is in the block of its half's last tile. -/
theorem cover9 (q : S2x192x192.Idx) : ∃ t : Fin cfg0.N, (cfg0.win 9).flush t = true ∧ q ∈ ((cfg0.win 9).blk t).view.set := by
  have hN : cfg0.N = 128 := N_0
  have hq0 : (q 0).val < 2 := (q 0).isLt
  have hq1 : (q 1).val < 192 := (q 1).isLt
  have hq2 : (q 2).val < 192 := (q 2).isLt
  refine ⟨⟨(q 0).val * 64 + 63, by omega⟩, (flush0_9 _).mpr (by show ((q 0).val * 64 + 63) % 64 = 63; omega), ?_⟩
  rw [mem_blk9]
  obtain ⟨e0, e1, e2⟩ := idxO9 ⟨(q 0).val * 64 + 63, by omega⟩
  intro a
  match a with
  | ⟨0, _⟩ =>
    show win0_9.index _ (0 : Fin 3) * 1 ≤ (q 0).val ∧ (q 0).val < win0_9.index _ (0 : Fin 3) * 1 + 1
    rw [e0]; show ((q 0).val * 64 + 63) / 64 * 1 ≤ (q 0).val ∧ (q 0).val < ((q 0).val * 64 + 63) / 64 * 1 + 1; omega
  | ⟨1, _⟩ =>
    show win0_9.index _ (1 : Fin 3) * 192 ≤ (q 1).val ∧ (q 1).val < win0_9.index _ (1 : Fin 3) * 192 + 192
    rw [e1]; omega
  | ⟨2, _⟩ =>
    show win0_9.index _ (2 : Fin 3) * 192 ≤ (q 2).val ∧ (q 2).val < win0_9.index _ (2 : Fin 3) * 192 + 192
    rw [e2]; omega

theorem final9 (c : Dev nD) : (dats m 0 c).arrAt 9 cfg0.N = G9 m c :=
  (dats m 0 c).arrAt_eq_of_cover 9 (G9 m c) (flushed9 m c) (cover9)

/-- The two halves of output 9 at a pair of rooms: the sum over all 1024 rows. -/
theorem halves9 (c : Dev nD) (i j : Fin 192) :
    ∑ k : Fin 2, G9 m c (ix3 k i j) = ∑ b : Fin 1024, (fun b => dist (inP m c) (inS m c) b i j) b :=
  acc1_halves m c i j

/-! ## Output 10 -/

theorem idxO10 : ∀ t : Fin cfg0.N, win0_10.index t (0 : Fin 3) = t.val / 64 ∧ win0_10.index t (1 : Fin 3) = 0
    ∧ win0_10.index t (2 : Fin 3) = 0 :=
  (by decide +kernel : ∀ t : Fin grid0.N, _)

/-- What output 10's array ends holding: at half `k`, accumulator 2 after the half's last tile. -/
def G10 (c : Dev nD) : S2x1x1.Idx → EReal :=
  fun q => acc2At m c ((q 0).val * 64 + 63)

theorem mem_blk10 (t : Fin cfg0.N) (q : S2x1x1.Idx) :
    q ∈ ((cfg0.win 10).blk t).view.set ↔ ∀ a : Fin 3, win0_10.index t a * S1x1x1.size a ≤ (q a).val
      ∧ (q a).val < win0_10.index t a * S1x1x1.size a + S1x1x1.size a := by
  show q ∈ ((View.whole main_v16_2).slice (win0_10.rect t)).set ↔ _
  rw [View.set_slice_whole, Rect.mem_set_unit]
  exact Iff.rfl

/-- Where entry (u, i, j) of the block of a half's last tile sits in the array: half `t / 64`, at (i, j). -/
theorem emb10 (t : Fin cfg0.N) (h63 : t.val % 64 = 63) (u : Fin 1) (i j : Fin 1) :
    ((((cfg0.win 10).blk t).view.emb (ix3 u i j)) 0).val * 64 + 63 = t.val
    ∧ (((cfg0.win 10).blk t).view.emb (ix3 u i j)) 1 = i ∧ (((cfg0.win 10).blk t).view.emb (ix3 u i j)) 2 = j := by
  obtain ⟨e0, e1, e2⟩ := idxO10 t
  have hu : u.val = 0 := by omega
  refine ⟨?_, Fin.ext ?_, Fin.ext ?_⟩
  · show (win0_10.index t (0 : Fin 3) * 1 + 1 * u.val) * 64 + 63 = t.val
    rw [e0]; omega
  · show win0_10.index t (1 : Fin 3) * 1 + 1 * i.val = i.val
    rw [e1]; omega
  · show win0_10.index t (2 : Fin 3) * 1 + 1 * j.val = j.val
    rw [e2]; omega

/-- The one write-back of a half, at its last tile, writes the accumulator. -/
theorem flushed10 (c : Dev nD) (t : Fin cfg0.N) (hf : (cfg0.win 10).flush t = true) :
    (dats m 0 c).flushed 10 t = ((cfg0.win 10).blk t).view.read (Elt Ideal) (G10 m c) := by
  have h63 : t.val % 64 = 63 := (flush0_10 t).mp hf
  show (cfg0.win 10).cut (grid0.coords t) ((dats m 0 c).after 10 t) = _
  rw [after0_10, out10_last m c t h63]
  funext y
  obtain ⟨u, i, j, rfl⟩ : ∃ (u : Fin 1) (i : Fin 1) (j : Fin 1), y = ix3 u i j := ⟨y 0, y 1, y 2, eq_ix3 y⟩
  show k0_pay5 ((outsAt0 m c t.val t.isLt).2.2.2.2.2.2.1) (ix3 u i j) = G10 m c (((cfg0.win 10).blk t).view.emb (ix3 u i j))
  obtain ⟨E0, E1, E2⟩ := emb10 t h63 u i j
  unfold G10
  rw [E0, acc2At_of_lt m c t.val t.isLt]
  obtain rfl : i = 0 := Subsingleton.elim _ _
  obtain rfl : j = 0 := Subsingleton.elim _ _
  exact shapeCast_ab_1ab_apply _ _ u 0 0

/-- Every entry of the array is in the block of its half's last tile. -/
theorem cover10 (q : S2x1x1.Idx) : ∃ t : Fin cfg0.N, (cfg0.win 10).flush t = true ∧ q ∈ ((cfg0.win 10).blk t).view.set := by
  have hN : cfg0.N = 128 := N_0
  have hq0 : (q 0).val < 2 := (q 0).isLt
  have hq1 : (q 1).val < 1 := (q 1).isLt
  have hq2 : (q 2).val < 1 := (q 2).isLt
  refine ⟨⟨(q 0).val * 64 + 63, by omega⟩, (flush0_10 _).mpr (by show ((q 0).val * 64 + 63) % 64 = 63; omega), ?_⟩
  rw [mem_blk10]
  obtain ⟨e0, e1, e2⟩ := idxO10 ⟨(q 0).val * 64 + 63, by omega⟩
  intro a
  match a with
  | ⟨0, _⟩ =>
    show win0_10.index _ (0 : Fin 3) * 1 ≤ (q 0).val ∧ (q 0).val < win0_10.index _ (0 : Fin 3) * 1 + 1
    rw [e0]; show ((q 0).val * 64 + 63) / 64 * 1 ≤ (q 0).val ∧ (q 0).val < ((q 0).val * 64 + 63) / 64 * 1 + 1; omega
  | ⟨1, _⟩ =>
    show win0_10.index _ (1 : Fin 3) * 1 ≤ (q 1).val ∧ (q 1).val < win0_10.index _ (1 : Fin 3) * 1 + 1
    rw [e1]; omega
  | ⟨2, _⟩ =>
    show win0_10.index _ (2 : Fin 3) * 1 ≤ (q 2).val ∧ (q 2).val < win0_10.index _ (2 : Fin 3) * 1 + 1
    rw [e2]; omega

theorem final10 (c : Dev nD) : (dats m 0 c).arrAt 10 cfg0.N = G10 m c :=
  (dats m 0 c).arrAt_eq_of_cover 10 (G10 m c) (flushed10 m c) (cover10)

/-- The two halves of output 10: the sum over all 1024 rows. -/
theorem halves10 (c : Dev nD) :
    ∑ k : Fin 2, G10 m c (ix3 k 0 0) = ∑ b : Fin 1024, (fun b => ∑ r : Fin 192, sqDiff (inP m c) (inTP m c) b r) b :=
  acc2_halves m c

/-! ## Output 11 -/

theorem idxO11 : ∀ t : Fin cfg0.N, win0_11.index t (0 : Fin 3) = t.val / 64 ∧ win0_11.index t (1 : Fin 3) = 0
    ∧ win0_11.index t (2 : Fin 3) = 0 :=
  (by decide +kernel : ∀ t : Fin grid0.N, _)

/-- What output 11's array ends holding: at half `k`, accumulator 3 after the half's last tile. -/
def G11 (c : Dev nD) : S2x1x1.Idx → EReal :=
  fun q => acc3At m c ((q 0).val * 64 + 63)

theorem mem_blk11 (t : Fin cfg0.N) (q : S2x1x1.Idx) :
    q ∈ ((cfg0.win 11).blk t).view.set ↔ ∀ a : Fin 3, win0_11.index t a * S1x1x1.size a ≤ (q a).val
      ∧ (q a).val < win0_11.index t a * S1x1x1.size a + S1x1x1.size a := by
  show q ∈ ((View.whole main_v16_3).slice (win0_11.rect t)).set ↔ _
  rw [View.set_slice_whole, Rect.mem_set_unit]
  exact Iff.rfl

/-- Where entry (u, i, j) of the block of a half's last tile sits in the array: half `t / 64`, at (i, j). -/
theorem emb11 (t : Fin cfg0.N) (h63 : t.val % 64 = 63) (u : Fin 1) (i j : Fin 1) :
    ((((cfg0.win 11).blk t).view.emb (ix3 u i j)) 0).val * 64 + 63 = t.val
    ∧ (((cfg0.win 11).blk t).view.emb (ix3 u i j)) 1 = i ∧ (((cfg0.win 11).blk t).view.emb (ix3 u i j)) 2 = j := by
  obtain ⟨e0, e1, e2⟩ := idxO11 t
  have hu : u.val = 0 := by omega
  refine ⟨?_, Fin.ext ?_, Fin.ext ?_⟩
  · show (win0_11.index t (0 : Fin 3) * 1 + 1 * u.val) * 64 + 63 = t.val
    rw [e0]; omega
  · show win0_11.index t (1 : Fin 3) * 1 + 1 * i.val = i.val
    rw [e1]; omega
  · show win0_11.index t (2 : Fin 3) * 1 + 1 * j.val = j.val
    rw [e2]; omega

/-- The one write-back of a half, at its last tile, writes the accumulator. -/
theorem flushed11 (c : Dev nD) (t : Fin cfg0.N) (hf : (cfg0.win 11).flush t = true) :
    (dats m 0 c).flushed 11 t = ((cfg0.win 11).blk t).view.read (Elt Ideal) (G11 m c) := by
  have h63 : t.val % 64 = 63 := (flush0_11 t).mp hf
  show (cfg0.win 11).cut (grid0.coords t) ((dats m 0 c).after 11 t) = _
  rw [after0_11, out11_last m c t h63]
  funext y
  obtain ⟨u, i, j, rfl⟩ : ∃ (u : Fin 1) (i : Fin 1) (j : Fin 1), y = ix3 u i j := ⟨y 0, y 1, y 2, eq_ix3 y⟩
  show k0_pay6 ((outsAt0 m c t.val t.isLt).2.2.2.2.2.2.2) (ix3 u i j) = G11 m c (((cfg0.win 11).blk t).view.emb (ix3 u i j))
  obtain ⟨E0, E1, E2⟩ := emb11 t h63 u i j
  unfold G11
  rw [E0, acc3At_of_lt m c t.val t.isLt]
  obtain rfl : i = 0 := Subsingleton.elim _ _
  obtain rfl : j = 0 := Subsingleton.elim _ _
  exact shapeCast_ab_1ab_apply _ _ u 0 0

/-- Every entry of the array is in the block of its half's last tile. -/
theorem cover11 (q : S2x1x1.Idx) : ∃ t : Fin cfg0.N, (cfg0.win 11).flush t = true ∧ q ∈ ((cfg0.win 11).blk t).view.set := by
  have hN : cfg0.N = 128 := N_0
  have hq0 : (q 0).val < 2 := (q 0).isLt
  have hq1 : (q 1).val < 1 := (q 1).isLt
  have hq2 : (q 2).val < 1 := (q 2).isLt
  refine ⟨⟨(q 0).val * 64 + 63, by omega⟩, (flush0_11 _).mpr (by show ((q 0).val * 64 + 63) % 64 = 63; omega), ?_⟩
  rw [mem_blk11]
  obtain ⟨e0, e1, e2⟩ := idxO11 ⟨(q 0).val * 64 + 63, by omega⟩
  intro a
  match a with
  | ⟨0, _⟩ =>
    show win0_11.index _ (0 : Fin 3) * 1 ≤ (q 0).val ∧ (q 0).val < win0_11.index _ (0 : Fin 3) * 1 + 1
    rw [e0]; show ((q 0).val * 64 + 63) / 64 * 1 ≤ (q 0).val ∧ (q 0).val < ((q 0).val * 64 + 63) / 64 * 1 + 1; omega
  | ⟨1, _⟩ =>
    show win0_11.index _ (1 : Fin 3) * 1 ≤ (q 1).val ∧ (q 1).val < win0_11.index _ (1 : Fin 3) * 1 + 1
    rw [e1]; omega
  | ⟨2, _⟩ =>
    show win0_11.index _ (2 : Fin 3) * 1 ≤ (q 2).val ∧ (q 2).val < win0_11.index _ (2 : Fin 3) * 1 + 1
    rw [e2]; omega

theorem final11 (c : Dev nD) : (dats m 0 c).arrAt 11 cfg0.N = G11 m c :=
  (dats m 0 c).arrAt_eq_of_cover 11 (G11 m c) (flushed11 m c) (cover11)

/-- The two halves of output 11: the sum over all 1024 rows. -/
theorem halves11 (c : Dev nD) :
    ∑ k : Fin 2, G11 m c (ix3 k 0 0) = ∑ b : Fin 1024, (fun b => ∑ r : Fin 192, sqDiff (inS m c) (inTS m c) b r) b :=
  acc3_halves m c
end Cert.KernelIdeal.Final

end
-- ==== Proof.Tail.lean ====
/-
  The host lines after the kernel: the five results as functions of the kernel's four output arrays.

  The kernel leaves, per half c of the batch, the two accumulated matrices [2, 192, 192] and the two accumulated
  totals [2, 1, 1].  The host adds the two halves, divides by the batch size (the matrices) or by the number of
  entries (the totals), keeps the pairs of the strict upper triangle (and, for the distance, the adjacent ones) and
  sums them, and forms the weighted total.  Read at the ideal values these are the closed forms of the loss with the
  per-pair totals replaced by the sums of the two halves.
-/
import proofs.«166481_j64450279244066_2_alg».proof.Proof.PatchedKernelIdeal.Runs
import proofs.«166481_j64450279244066_2_alg».proof.Proof.Spec
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

namespace Cert.KernelIdeal.Tail

open Cert.KernelIdeal Cert.KernelIdeal.Gen Cert.KernelIdeal.GenP
open Idealize.ShloMosaic Idealize.ShloMosaic.TcCoe Idealize.SL.Sem Idealize.ShloMosaic.ValueIdx Idealize.ShloMosaic.StableHlo FloorPlan
open Idealize.ShloMosaic.Pipeline (Dat)
open scoped BigOperators

variable {F : FTy → Type} [FloatOps F]

/-! ## The host's terms -/

/-- A total of the two halves, divided by the number of entries. -/
def meanOfHalves (o : (⟨S2x1x1, .f32⟩ : BufTy).Contents (Elt F)) : (⟨S_, .f32⟩ : BufTy).Contents (Elt F) :=
  Host.divf (Host.reduceAdd o (constant S_ .f32 0x00000000#32) reducesTo_S2x1x1_S_d0_1_2 h_S_) (constant S_ .f32 0x48C00000#32)

/-- The batch mean of the two halves of an accumulated matrix, summed over the pairs a mask keeps. -/
def maskedMean (T : (⟨S192x192, .i1⟩ : BufTy).Contents (Elt F)) (o : (⟨S2x192x192, .f32⟩ : BufTy).Contents (Elt F)) :
    (⟨S_, .f32⟩ : BufTy).Contents (Elt F) :=
  Host.reduceAdd
    (select T
      (Host.divf (Host.reduceAdd o (constant S_ .f32 0x00000000#32) reducesTo_S2x192x192_S192x192_d0 h_S_)
        (broadcastInDim S192x192 ![] bcast_S_S192x192 (constant S_ .f32 0x44800000#32)))
      (broadcastInDim S192x192 ![] bcast_S_S192x192 (constant S_ .f32 0x00000000#32)))
    (constant S_ .f32 0x00000000#32) reducesTo_S192x192_S_d0_1 h_S_

/-- The weighted total of the four losses. -/
def weighted (a b c d : (⟨S_, .f32⟩ : BufTy).Contents (Elt F)) : (⟨S_, .f32⟩ : BufTy).Contents (Elt F) :=
  addf (addf (addf (mulf (constant S_ .f32 0x3F800000#32) a) (mulf (constant S_ .f32 0x3F800000#32) b))
    (mulf (constant S_ .f32 0x3F000000#32) c)) (mulf (constant S_ .f32 0x3E99999A#32) d)

/-! ## The results the host lines leave, from the kernel's output arrays -/

section Results
variable (m : (ℓ : Loc nD τ sig) → Buf (Elt F) ℓ)
variable (dats : (p : Fin 1) → (c : Dev nD) → Dat τ (Elt F) Unit ℕ (UR sig nD τ) ℕ (cfgs p) c) (c : Dev nD)

set_option maxHeartbeats 2000000 in
theorem position_loss :
    Pipeline.afterTail₀ cfgs dats 0 (V0 m) [hostOps1, hostOps1_1, hostOps1_2, hostOps1_3, hostOps1_4, hostOps1_5, hostOps1_6] c main_v21 = meanOfHalves ((dats 0 c).arrAt 10 cfg0.N) := by
  unfold Pipeline.afterTail₀
  simp only [hostOps1, hostOps1_1, hostOps1_2, hostOps1_3, hostOps1_4, hostOps1_5, hostOps1_6, List.flatten_cons,
    List.flatten_nil, List.append_nil, List.cons_append, List.nil_append]
  after_results_simp
  rw [(show Pipeline.withArrays (cfgs 0).spec c (V0 m c) (fun w => (dats 0 c).arrAt w (cfgs 0).N) (Proc.devRef .tc main_v16_2)
      = (dats 0 c).arrAt 10 cfg0.N from Pipeline.withArrays_arr spec0 winFacts0.arr_inj c _ _ 10)]
  rfl

set_option maxHeartbeats 2000000 in
theorem size_loss :
    Pipeline.afterTail₀ cfgs dats 0 (V0 m) [hostOps1, hostOps1_1, hostOps1_2, hostOps1_3, hostOps1_4, hostOps1_5, hostOps1_6] c main_v22 = meanOfHalves ((dats 0 c).arrAt 11 cfg0.N) := by
  unfold Pipeline.afterTail₀
  simp only [hostOps1, hostOps1_1, hostOps1_2, hostOps1_3, hostOps1_4, hostOps1_5, hostOps1_6, List.flatten_cons,
    List.flatten_nil, List.append_nil, List.cons_append, List.nil_append]
  after_results_simp
  rw [(show Pipeline.withArrays (cfgs 0).spec c (V0 m c) (fun w => (dats 0 c).arrAt w (cfgs 0).N) (Proc.devRef .tc main_v16_3)
      = (dats 0 c).arrAt 11 cfg0.N from Pipeline.withArrays_arr spec0 winFacts0.arr_inj c _ _ 11)]
  rfl

set_option maxHeartbeats 2000000 in
theorem overlap_penalty :
    Pipeline.afterTail₀ cfgs dats 0 (V0 m) [hostOps1, hostOps1_1, hostOps1_2, hostOps1_3, hostOps1_4, hostOps1_5, hostOps1_6] c main_v34
      = maskedMean (triuMask bcast_S_S192x192) ((dats 0 c).arrAt 8 cfg0.N) := by
  unfold Pipeline.afterTail₀
  simp only [hostOps1, hostOps1_1, hostOps1_2, hostOps1_3, hostOps1_4, hostOps1_5, hostOps1_6, List.flatten_cons,
    List.flatten_nil, List.append_nil, List.cons_append, List.nil_append]
  after_results_simp
  rw [(show Pipeline.withArrays (cfgs 0).spec c (V0 m c) (fun w => (dats 0 c).arrAt w (cfgs 0).N) (Proc.devRef .tc main_v16_0)
      = (dats 0 c).arrAt 8 cfg0.N from Pipeline.withArrays_arr spec0 winFacts0.arr_inj c _ _ 8)]
  rfl

set_option maxHeartbeats 2000000 in
theorem adjacency_loss :
    Pipeline.afterTail₀ cfgs dats 0 (V0 m) [hostOps1, hostOps1_1, hostOps1_2, hostOps1_3, hostOps1_4, hostOps1_5, hostOps1_6] c main_v36
      = maskedMean (adjMask bcast_S_S192x192 shapeCasts_S1x192x192_S192x192 (m ((c : Thread nD τ).loc main_arg4)))
          ((dats 0 c).arrAt 9 cfg0.N) := by
  unfold Pipeline.afterTail₀
  simp only [hostOps1, hostOps1_1, hostOps1_2, hostOps1_3, hostOps1_4, hostOps1_5, hostOps1_6, List.flatten_cons,
    List.flatten_nil, List.append_nil, List.cons_append, List.nil_append]
  after_results_simp
  rw [(show Pipeline.withArrays (cfgs 0).spec c (V0 m c) (fun w => (dats 0 c).arrAt w (cfgs 0).N) (Proc.devRef .tc main_v16_1)
      = (dats 0 c).arrAt 9 cfg0.N from Pipeline.withArrays_arr spec0 winFacts0.arr_inj c _ _ 9),
    (show Pipeline.withArrays (cfgs 0).spec c (V0 m c) (fun w => (dats 0 c).arrAt w (cfgs 0).N) (Proc.devRef .tc main_arg4)
      = m ((c : Thread nD τ).loc main_arg4) from
      (Pipeline.withArrays_of_ne _ c (V0 m c) _ main_arg4 (by decide : ∀ w, Pipeline.arrRef spec0 w ≠ main_arg4)).trans (V_main_arg4 m c))]
  rfl

set_option maxHeartbeats 4000000 in
theorem total_loss :
    Pipeline.afterTail₀ cfgs dats 0 (V0 m) [hostOps1, hostOps1_1, hostOps1_2, hostOps1_3, hostOps1_4, hostOps1_5, hostOps1_6] c main_v43
      = weighted (meanOfHalves ((dats 0 c).arrAt 10 cfg0.N)) (meanOfHalves ((dats 0 c).arrAt 11 cfg0.N))
          (maskedMean (triuMask bcast_S_S192x192) ((dats 0 c).arrAt 8 cfg0.N))
          (maskedMean (adjMask bcast_S_S192x192 shapeCasts_S1x192x192_S192x192 (m ((c : Thread nD τ).loc main_arg4)))
            ((dats 0 c).arrAt 9 cfg0.N)) := by
  unfold Pipeline.afterTail₀
  simp only [hostOps1, hostOps1_1, hostOps1_2, hostOps1_3, hostOps1_4, hostOps1_5, hostOps1_6, List.flatten_cons,
    List.flatten_nil, List.append_nil, List.cons_append, List.nil_append]
  after_results_simp
  rw [(show Pipeline.withArrays (cfgs 0).spec c (V0 m c) (fun w => (dats 0 c).arrAt w (cfgs 0).N) (Proc.devRef .tc main_v16_0)
      = (dats 0 c).arrAt 8 cfg0.N from Pipeline.withArrays_arr spec0 winFacts0.arr_inj c _ _ 8),
    (show Pipeline.withArrays (cfgs 0).spec c (V0 m c) (fun w => (dats 0 c).arrAt w (cfgs 0).N) (Proc.devRef .tc main_v16_1)
      = (dats 0 c).arrAt 9 cfg0.N from Pipeline.withArrays_arr spec0 winFacts0.arr_inj c _ _ 9),
    (show Pipeline.withArrays (cfgs 0).spec c (V0 m c) (fun w => (dats 0 c).arrAt w (cfgs 0).N) (Proc.devRef .tc main_v16_2)
      = (dats 0 c).arrAt 10 cfg0.N from Pipeline.withArrays_arr spec0 winFacts0.arr_inj c _ _ 10),
    (show Pipeline.withArrays (cfgs 0).spec c (V0 m c) (fun w => (dats 0 c).arrAt w (cfgs 0).N) (Proc.devRef .tc main_v16_3)
      = (dats 0 c).arrAt 11 cfg0.N from Pipeline.withArrays_arr spec0 winFacts0.arr_inj c _ _ 11),
    (show Pipeline.withArrays (cfgs 0).spec c (V0 m c) (fun w => (dats 0 c).arrAt w (cfgs 0).N) (Proc.devRef .tc main_arg4)
      = m ((c : Thread nD τ).loc main_arg4) from
      (Pipeline.withArrays_of_ne _ c (V0 m c) _ main_arg4 (by decide : ∀ w, Pipeline.arrRef spec0 w ≠ main_arg4)).trans (V_main_arg4 m c))]
  rfl

end Results

/-! ## The terms at the ideal values -/

theorem meanOfHalves_ideal (o : (⟨3, ![2, 1, 1]⟩ : Shape).Idx → EReal) :
    meanOfHalves (F := Ideal) o = fun _ => meanLoss (∑ c : Fin 2, o (ix3 c 0 0)) := by
  funext q
  show Ideal.div (Ideal.hostReduceAdd reducesTo_S2x1x1_S_d0_1_2 o (Ideal.ofBits .f32 0x00000000#32) q)
      (Ideal.ofBits .f32 0x48C00000#32) = _
  rw [Ideal.hostReduceAdd_total reducesTo_S2x1x1_S_d0_1_2 (fun b => b.elim0) o _ q, sum_idx3]
  simp only [Fin.sum_univ_one]
  rfl

theorem maskedMean_ideal (T : Pairs.Idx → BitVec 1) (o : (⟨3, ![2, 192, 192]⟩ : Shape).Idx → EReal) :
    maskedMean (F := Ideal) T o = fun _ => penalty T fun i j => ∑ c : Fin 2, o (ix3 c i j) := by
  funext q
  show Ideal.hostReduceAdd reducesTo_S192x192_S_d0_1
      (fun t => Scalar.select (T t)
        (Ideal.div (Ideal.hostReduceAdd reducesTo_S2x192x192_S192x192_d0 o (Ideal.ofBits .f32 0x00000000#32) t)
          (Ideal.ofBits .f32 0x44800000#32))
        (Ideal.ofBits .f32 0x00000000#32))
      (Ideal.ofBits .f32 0x00000000#32) q = _
  rw [Ideal.hostReduceAdd_total reducesTo_S192x192_S_d0_1 (fun b => b.elim0) _ _ q]
  unfold penalty
  refine congrArg (Ideal.ofBits .f32 0x00000000#32 + ·) (Finset.sum_congr rfl fun t _ => ?_)
  show Scalar.select (T t)
      (Ideal.div (Ideal.hostReduceAdd reducesTo_S2x192x192_S192x192_d0 o (Ideal.ofBits .f32 0x00000000#32) t) _) _ = _
  rw [Ideal.hostReduceAdd_single reducesTo_S2x192x192_S192x192_d0 (by decide)]
  refine congrArg (fun z => Scalar.select (T t) (Ideal.div (Ideal.ofBits .f32 0x00000000#32 + z) _) _)
    (Finset.sum_congr rfl fun k _ => ?_)
  exact congrArg o (funext fun a => Fin.ext (by match a with | ⟨0, _⟩ => rfl | ⟨1, _⟩ => rfl | ⟨2, _⟩ => rfl))

theorem weighted_ideal (a b c d : EReal) :
    weighted (F := Ideal) (fun _ => a) (fun _ => b) (fun _ => c) (fun _ => d) = fun _ => combine a b c d := rfl

end Cert.KernelIdeal.Tail

end
-- ==== Proof.KernelValue.lean ====
/-
  The idealized kernel's run, read: its five results in closed form.

  The frame run leaves every host result at the host lines' term of the kernel's output arrays (`Tail`); the output
  arrays hold the halves' accumulators (`Final`), whose two halves add up to the sums over all rows (`Accum`).  So the
  results are the closed forms of the loss of the four float inputs and the adjacency words, as the device holds them.
-/
import proofs.«166481_j64450279244066_2_alg».proof.Proof.Final
import proofs.«166481_j64450279244066_2_alg».proof.Proof.Tail

set_option maxRecDepth 16384

noncomputable section

namespace Cert.KernelIdeal.KernelValue

open Cert.KernelIdeal Cert.KernelIdeal.Gen Cert.KernelIdeal.GenP Cert.KernelIdeal.Accum Cert.KernelIdeal.Final Cert.KernelIdeal.Tail
open Idealize.ShloMosaic Idealize.ShloMosaic.TcCoe Idealize.SL.Sem Idealize.ShloMosaic.ValueIdx FloorPlan
open Idealize.ShloMosaic.Pipeline (Dat)
open scoped BigOperators

variable (m : (ℓ : Loc nD τ sig) → Buf (Elt Ideal) ℓ) (ρ : Dev nD → PrngReg)

/-- The adjacent pairs of the strict upper triangle, from the adjacency words the device holds. -/
abbrev adjOf (c : Dev nD) : Pairs.Idx → BitVec 1 :=
  adjMask bcast_S_S192x192 shapeCasts_S1x192x192_S192x192 (m ((c : Thread nD τ).loc main_arg4))

theorem value_position (c : Dev nD) :
    meanOfHalves (F := Ideal) ((dats m 0 c).arrAt 10 cfg0.N) = fun _ => lossOf (inP m c) (inTP m c) := by
  rw [final10 m c, meanOfHalves_ideal, halves10 m c]
  rfl

theorem value_size (c : Dev nD) :
    meanOfHalves (F := Ideal) ((dats m 0 c).arrAt 11 cfg0.N) = fun _ => lossOf (inS m c) (inTS m c) := by
  rw [final11 m c, meanOfHalves_ideal, halves11 m c]
  rfl

theorem value_overlap (c : Dev nD) (T : Pairs.Idx → BitVec 1) :
    maskedMean (F := Ideal) T ((dats m 0 c).arrAt 8 cfg0.N) = fun _ => overlapPenalty T (inP m c) (inS m c) := by
  rw [final8 m c, maskedMean_ideal]
  exact congrArg (fun g => fun _ => penalty T g) (funext fun i => funext fun j => halves8 m c i j)

theorem value_adjacency (c : Dev nD) (T : Pairs.Idx → BitVec 1) :
    maskedMean (F := Ideal) T ((dats m 0 c).arrAt 9 cfg0.N) = fun _ => adjacencyLoss T (inP m c) (inS m c) := by
  rw [final9 m c, maskedMean_ideal]
  exact congrArg (fun g => fun _ => penalty T g) (funext fun i => funext fun j => halves9 m c i j)

/-- The run: the five results at the closed forms of the loss, the arguments unchanged. -/
theorem run : θ_run defs (onTc (τ := τ) (main (F := Ideal))) ⟨m, fun _ => 0, ρ⟩ fun r => ∀ c : Dev nD,
      r.2.mem ((c : Thread nD τ).loc main_v43) = (fun _ => combine (lossOf (inP m c) (inTP m c)) (lossOf (inS m c) (inTS m c))
          (overlapPenalty (triuMask bcast_S_S192x192) (inP m c) (inS m c)) (adjacencyLoss (adjOf m c) (inP m c) (inS m c)))
      ∧ r.2.mem ((c : Thread nD τ).loc main_v21) = (fun _ => lossOf (inP m c) (inTP m c))
      ∧ r.2.mem ((c : Thread nD τ).loc main_v22) = (fun _ => lossOf (inS m c) (inTS m c))
      ∧ r.2.mem ((c : Thread nD τ).loc main_v34) = (fun _ => overlapPenalty (triuMask bcast_S_S192x192) (inP m c) (inS m c))
      ∧ r.2.mem ((c : Thread nD τ).loc main_v36) = (fun _ => adjacencyLoss (adjOf m c) (inP m c) (inS m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).2 main_v43 (Pipeline.mem_restRefs_of main_v43 (by decide) (by decide))).trans ((total_loss m (dats m) c).trans (by
        rw [value_position, value_size, value_overlap, value_adjacency]; rfl)),
      ((h c).2 main_v21 (Pipeline.mem_restRefs_of main_v21 (by decide) (by decide))).trans ((position_loss m (dats m) c).trans (value_position m c)),
      ((h c).2 main_v22 (Pipeline.mem_restRefs_of main_v22 (by decide) (by decide))).trans ((size_loss m (dats m) c).trans (value_size m c)),
      ((h c).2 main_v34 (Pipeline.mem_restRefs_of main_v34 (by decide) (by decide))).trans ((overlap_penalty m (dats m) c).trans (value_overlap m c _)),
      ((h c).2 main_v36 (Pipeline.mem_restRefs_of main_v36 (by decide) (by decide))).trans ((adjacency_loss m (dats m) c).trans (value_adjacency m c _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference, read at the ideal values: its five results are the five closed forms of the loss.

  The reference's per-row terms are read one host operation at a time.  The two components of an input are a unit
  slice and a reshape; a pair (i, j) of rooms is formed by stretching an array [1024, 192] once through a column and
  once through a row; `clip(·, 0)` is the maximum with the integer 0 converted to a float; the centre is the near edge
  plus the size divided by 2.0, which is the product with 0.5.  Under the adjacency mask the reference takes the square
  root of 1.0 off the mask; those entries are dropped by the same mask after the mean, so they never reach the result.
-/
import proofs.«166481_j64450279244066_2_alg».proof.Proof.Gen.ReferenceIdeal.Read
import proofs.«166481_j64450279244066_2_alg».proof.Proof.Spec
import proofs.«166481_j64450279244066_2_alg».proof.Proof.LibPairLayout
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx FloorPlan FloorPlan.HostLayout
open scoped BigOperators

variable (p s tp ts : Arr) (adj : (⟨3, ![1, 192, 192]⟩ : Shape).Idx → BitVec 32)
variable (b : Fin 1024) (i j r : Fin 192)

/-! ## The components and the centres, per batch row and room -/

theorem ref_x : val_main_v11 (F := Ideal) p (ix2 b r) = p (ix3 b r 0) := component_apply 0 p _ _ b r
theorem ref_y : val_main_v13 (F := Ideal) p (ix2 b r) = p (ix3 b r 1) := component_apply 1 p _ _ b r
theorem ref_w : val_main_v15 (F := Ideal) s (ix2 b r) = s (ix3 b r 0) := component_apply 0 s _ _ b r
theorem ref_h : val_main_v17 (F := Ideal) s (ix2 b r) = s (ix3 b r 1) := component_apply 1 s _ _ b r

/-- The reference's centre array, entry by entry: the near edge plus the size over 2.0. -/
theorem ref_centre (k : Fin 2) : val_main_v54 (F := Ideal) p s (ix3 b r k) = centre p s b r k := by
  show p (ix3 b r k) + Ideal.div (s (ix3 b r k)) (val_main_v52 (F := Ideal) (ix3 b r k)) = _
  rw [show val_main_v52 (F := Ideal) (ix3 b r k) = Ideal.ofBits .f32 0x40000000#32 from splat_apply _ _ _, div_two]
  rfl

theorem ref_c0 : val_main_v56 (F := Ideal) p s (ix2 b r) = centre p s b r 0 :=
  (component_apply 0 (val_main_v54 (F := Ideal) p s) _ _ b r).trans (ref_centre p s b r 0)
theorem ref_c1 : val_main_v58 (F := Ideal) p s (ix2 b r) = centre p s b r 1 :=
  (component_apply 1 (val_main_v54 (F := Ideal) p s) _ _ b r).trans (ref_centre p s b r 1)

/-! ## Pairs of rooms: the column and the row of every pairwise term -/

theorem ref_v22 : val_main_v22 (F := Ideal) p s (ix3 b i j) = p (ix3 b i 0) + s (ix3 b i 0) := by
  refine (viaColumn_apply (val_main_v18 (F := Ideal) p s) _ _ b i j).trans ?_
  show val_main_v11 (F := Ideal) p (ix2 b i) + val_main_v15 (F := Ideal) s (ix2 b i) = _; rw [ref_x, ref_w]

theorem ref_v27 : val_main_v27 (F := Ideal) p (ix3 b i j) = p (ix3 b i 0) := by
  refine (viaColumn_apply (val_main_v11 (F := Ideal) p) _ _ b i j).trans ?_
  exact ref_x p b i

theorem ref_v36 : val_main_v36 (F := Ideal) p s (ix3 b i j) = p (ix3 b i 1) + s (ix3 b i 1) := by
  refine (viaColumn_apply (val_main_v32 (F := Ideal) p s) _ _ b i j).trans ?_
  show val_main_v13 (F := Ideal) p (ix2 b i) + val_main_v17 (F := Ideal) s (ix2 b i) = _; rw [ref_y, ref_h]

theorem ref_v41 : val_main_v41 (F := Ideal) p (ix3 b i j) = p (ix3 b i 1) := by
  refine (viaColumn_apply (val_main_v13 (F := Ideal) p) _ _ b i j).trans ?_
  exact ref_y p b i

theorem ref_v61 : val_main_v61 (F := Ideal) p s (ix3 b i j) = centre p s b i 0 := by
  refine (viaColumn_apply (val_main_v56 (F := Ideal) p s) _ _ b i j).trans ?_
  exact ref_c0 p s b i

theorem ref_v66 : val_main_v66 (F := Ideal) p s (ix3 b i j) = centre p s b i 1 := by
  refine (viaColumn_apply (val_main_v58 (F := Ideal) p s) _ _ b i j).trans ?_
  exact ref_c1 p s b i

theorem ref_v23 : val_main_v23 (F := Ideal) p s (ix3 b i j) = p (ix3 b j 0) + s (ix3 b j 0) := by
  refine (viaRow_apply (val_main_v20 (F := Ideal) p s) _ _ b i j).trans ?_
  show val_main_v11 (F := Ideal) p (ix2 b j) + val_main_v15 (F := Ideal) s (ix2 b j) = _; rw [ref_x, ref_w]

theorem ref_v28 : val_main_v28 (F := Ideal) p (ix3 b i j) = p (ix3 b j 0) := by
  refine (viaRow_apply (val_main_v11 (F := Ideal) p) _ _ b i j).trans ?_
  exact ref_x p b j

theorem ref_v37 : val_main_v37 (F := Ideal) p s (ix3 b i j) = p (ix3 b j 1) + s (ix3 b j 1) := by
  refine (viaRow_apply (val_main_v34 (F := Ideal) p s) _ _ b i j).trans ?_
  show val_main_v13 (F := Ideal) p (ix2 b j) + val_main_v17 (F := Ideal) s (ix2 b j) = _; rw [ref_y, ref_h]

theorem ref_v42 : val_main_v42 (F := Ideal) p (ix3 b i j) = p (ix3 b j 1) := by
  refine (viaRow_apply (val_main_v13 (F := Ideal) p) _ _ b i j).trans ?_
  exact ref_y p b j

theorem ref_v62 : val_main_v62 (F := Ideal) p s (ix3 b i j) = centre p s b j 0 := by
  refine (viaRow_apply (val_main_v56 (F := Ideal) p s) _ _ b i j).trans ?_
  exact ref_c0 p s b j

theorem ref_v67 : val_main_v67 (F := Ideal) p s (ix3 b i j) = centre p s b j 1 := by
  refine (viaRow_apply (val_main_v58 (F := Ideal) p s) _ _ b i j).trans ?_
  exact ref_c1 p s b j

/-- The integer 0 that `clip` converts, stretched over every entry, is the extended real 0. -/
theorem ref_clip0 (q : S1024x192x192.Idx) : val_main_call1_v1 (F := Ideal) q = 0 := by
  rw [show val_main_call1_v1 (F := Ideal) q = val_main_call1_v0 (F := Ideal) ix0 from splat_apply _ _ _]
  show (((0#32 : BitVec 32).toInt : ℝ) : EReal) = 0
  simp
theorem ref_clip0' (q : S1024x192x192.Idx) : val_main_call2_v1 (F := Ideal) q = 0 := by
  rw [show val_main_call2_v1 (F := Ideal) q = val_main_call2_v0 (F := Ideal) ix0 from splat_apply _ _ _]
  show (((0#32 : BitVec 32).toInt : ℝ) : EReal) = 0
  simp

/-! ## The three per-row terms -/

theorem ref_overlap : val_main_v46 (F := Ideal) p s (ix3 b i j) = overlap p s b i j := by
  show max (val_main_call1_v1 (F := Ideal) (ix3 b i j))
        (min (val_main_v22 (F := Ideal) p s (ix3 b i j)) (val_main_v23 (F := Ideal) p s (ix3 b i j))
          - max (val_main_v27 (F := Ideal) p (ix3 b i j)) (val_main_v28 (F := Ideal) p (ix3 b i j)))
      * max (val_main_call2_v1 (F := Ideal) (ix3 b i j))
        (min (val_main_v36 (F := Ideal) p s (ix3 b i j)) (val_main_v37 (F := Ideal) p s (ix3 b i j))
          - max (val_main_v41 (F := Ideal) p (ix3 b i j)) (val_main_v42 (F := Ideal) p (ix3 b i j))) = _
  rw [ref_clip0, ref_clip0', ref_v22, ref_v23, ref_v27, ref_v28, ref_v36, ref_v37, ref_v41, ref_v42, max_comm (0 : EReal),
    max_comm (0 : EReal)]
  rfl

theorem ref_sqDist : val_main_v71 (F := Ideal) p s (ix3 b i j) = sqDist p s b i j := by
  show (val_main_v61 (F := Ideal) p s (ix3 b i j) - val_main_v62 (F := Ideal) p s (ix3 b i j))
        * (val_main_v61 (F := Ideal) p s (ix3 b i j) - val_main_v62 (F := Ideal) p s (ix3 b i j))
      + (val_main_v66 (F := Ideal) p s (ix3 b i j) - val_main_v67 (F := Ideal) p s (ix3 b i j))
        * (val_main_v66 (F := Ideal) p s (ix3 b i j) - val_main_v67 (F := Ideal) p s (ix3 b i j)) = _
  rw [ref_v61, ref_v62, ref_v66, ref_v67]
  rfl

/-! ## The masks -/

theorem ref_triu : val_main_v9 (F := Ideal) = triuMask bcast_S_S192x192 := rfl

theorem ref_adj : val_main_v75 (F := Ideal) adj = adjMask bcast_S_S192x192 shapeCasts_S1x192x192_S192x192 adj := rfl

/-- The adjacency mask stretched over the batch reads the mask of the pair. -/
theorem ref_adj_batch : val_main_call4_v1 (F := Ideal) adj (ix3 b i j) = val_main_v75 (F := Ideal) adj (ix2 i j) :=
  overBatch_apply (val_main_v75 (F := Ideal) adj) _ _ b i j

/-- Under the mask the reference's square root is the distance of the centres. -/
theorem ref_dist (hA : val_main_v75 (F := Ideal) adj (ix2 i j) = 1#1) :
    val_main_v78 (F := Ideal) p s adj (ix3 b i j) = dist p s b i j := by
  show Ideal.sqrt (Scalar.select (val_main_call4_v1 (F := Ideal) adj (ix3 b i j)) (val_main_v71 (F := Ideal) p s (ix3 b i j))
      (val_main_call4_v2 (F := Ideal) (ix3 b i j))) = _
  rw [ref_adj_batch, hA, select_one, ref_sqDist]
  rfl

/-! ## The five results -/

theorem ref_position : val_main_v3 (F := Ideal) p tp = fun _ => lossOf p tp := by
  funext q
  show Ideal.div (val_main_v2 (F := Ideal) p tp q) (Ideal.ofBits .f32 0x48C00000#32) = _
  rw [val_main_v2_apply]
  show Ideal.div (Ideal.ofBits .f32 0x00000000#32 + ∑ t : S1024x192x2.Idx, (p t - tp t) * (p t - tp t)) _ = _
  rw [sum_sq_entries]
  rfl

theorem ref_size : val_main_v7 (F := Ideal) s ts = fun _ => lossOf s ts := by
  funext q
  show Ideal.div (val_main_v6 (F := Ideal) s ts q) (Ideal.ofBits .f32 0x48C00000#32) = _
  rw [val_main_v6_apply]
  show Ideal.div (Ideal.ofBits .f32 0x00000000#32 + ∑ t : S1024x192x2.Idx, (s t - ts t) * (s t - ts t)) _ = _
  rw [sum_sq_entries]
  rfl

theorem ref_overlapPenalty : val_main_v51 (F := Ideal) p s = fun _ => overlapPenalty (triuMask bcast_S_S192x192) p s := by
  funext q
  rw [val_main_v51_apply]
  show Ideal.ofBits .f32 0x00000000#32 + ∑ t : S192x192.Idx, Scalar.select (val_main_v9 (F := Ideal) t)
      (Ideal.div (val_main_v47 (F := Ideal) p s t) (val_main_v48 (F := Ideal) t)) (val_main_call3_v1 (F := Ideal) t) = _
  unfold overlapPenalty penalty
  refine congrArg (Ideal.ofBits .f32 0x00000000#32 + ·) (Finset.sum_congr rfl fun t _ => ?_)
  rw [show val_main_v48 (F := Ideal) t = Ideal.ofBits .f32 0x44800000#32 from splat_apply _ _ _,
    show val_main_call3_v1 (F := Ideal) t = Ideal.ofBits .f32 0x00000000#32 from splat_apply _ _ _,
    val_main_v47_apply, ref_triu]
  show Scalar.select _ (Ideal.div (Ideal.ofBits .f32 0x00000000#32
      + ∑ k : Fin 1024, val_main_v46 (F := Ideal) p s (idx_main_v47 t k)) _) _ = _
  refine congrArg (fun z => Scalar.select _ (Ideal.div (Ideal.ofBits .f32 0x00000000#32 + z) _) _)
    (Finset.sum_congr rfl fun k _ => ?_)
  rw [show idx_main_v47 t k = ix3 k (t 0) (t 1) from funext fun a => by
    match a with
    | ⟨0, _⟩ => rfl
    | ⟨1, _⟩ => rfl
    | ⟨2, _⟩ => rfl]
  exact ref_overlap p s k (t 0) (t 1)

theorem ref_adjacencyLoss :
    val_main_v83 (F := Ideal) p s adj
      = fun _ => adjacencyLoss (adjMask bcast_S_S192x192 shapeCasts_S1x192x192_S192x192 adj) p s := by
  funext q
  rw [val_main_v83_apply]
  show Ideal.ofBits .f32 0x00000000#32 + ∑ t : S192x192.Idx, Scalar.select (val_main_v75 (F := Ideal) adj t)
      (Ideal.div (val_main_v79 (F := Ideal) p s adj t) (val_main_v80 (F := Ideal) t)) (val_main_call5_v1 (F := Ideal) t) = _
  unfold adjacencyLoss penalty
  refine congrArg (Ideal.ofBits .f32 0x00000000#32 + ·) (Finset.sum_congr rfl fun t _ => ?_)
  rw [show val_main_v80 (F := Ideal) t = Ideal.ofBits .f32 0x44800000#32 from splat_apply _ _ _,
    show val_main_call5_v1 (F := Ideal) t = Ideal.ofBits .f32 0x00000000#32 from splat_apply _ _ _, ← ref_adj]
  by_cases hA : val_main_v75 (F := Ideal) adj t = 1#1
  · rw [hA, select_one, select_one, val_main_v79_apply]
    show Ideal.div (Ideal.ofBits .f32 0x00000000#32
        + ∑ k : Fin 1024, val_main_v78 (F := Ideal) p s adj (idx_main_v79 t k)) _ = _
    refine congrArg (fun z => Ideal.div (Ideal.ofBits .f32 0x00000000#32 + z) _) (Finset.sum_congr rfl fun k _ => ?_)
    rw [show idx_main_v79 t k = ix3 k (t 0) (t 1) from funext fun a => by
      match a with
      | ⟨0, _⟩ => rfl
      | ⟨1, _⟩ => rfl
      | ⟨2, _⟩ => rfl]
    exact ref_dist p s adj k (t 0) (t 1) ((congrArg (val_main_v75 (F := Ideal) adj) (eq_ix2 t).symm).trans hA)
  · rw [eq_zero_of_ne_one hA, select_zero, select_zero]

theorem ref_total :
    val_main_v90 (F := Ideal) p s tp ts adj
      = fun _ => combine (lossOf p tp) (lossOf s ts) (overlapPenalty (triuMask bcast_S_S192x192) p s)
          (adjacencyLoss (adjMask bcast_S_S192x192 shapeCasts_S1x192x192_S192x192 adj) p s) := by
  funext q
  show Ideal.ofBits .f32 0x3F800000#32 * val_main_v3 (F := Ideal) p tp q + Ideal.ofBits .f32 0x3F800000#32 * val_main_v7 (F := Ideal) s ts q
      + Ideal.ofBits .f32 0x3F000000#32 * val_main_v51 (F := Ideal) p s q
      + Ideal.ofBits .f32 0x3E99999A#32 * val_main_v83 (F := Ideal) p s adj q = _
  rw [ref_position, ref_size, ref_overlapPenalty, ref_adjacencyLoss]
  rfl

end Cert.ReferenceIdeal.RefValue

end
-- ==== Proof.lean ====
/-
  The floor-plan loss: a Pallas kernel against its jnp reference, over the extended reals.

  Both programs return five numbers of four float inputs [1024, 192, 2] (positions, sizes and their targets) and a
  word array [1, 192, 192] (adjacency): the mean squared distance of the positions from their targets, the same for
  the sizes, the batch mean of the boxes' pairwise overlap area summed over the strict upper triangle of pairs of
  rooms, the batch mean of the pairwise distance of the boxes' centres summed over the adjacent pairs of that
  triangle, and their weighted total.

  The reference sums over the 1024 batch rows at once.  The kernel walks them as 2 halves of 64 tiles of 8 rows: per
  half it accumulates, tile by tile, the two [192, 192] matrices of pairwise terms and the two totals of squared
  differences, and the host adds the halves.  On the extended reals addition is commutative and associative with
  neutral element 0, so the regrouping changes nothing (no finiteness is needed).  Three further steps are not
  syntactic: the reference halves a size by dividing by 2.0 where the kernel multiplies by 0.5 (equal on every
  extended real); `clip(·, 0)` is `max 0 ·` where the kernel has `max · 0`; and the reference takes the square
  root of 1.0 at the pairs outside the adjacency mask, entries the same mask drops again after the batch mean.
  The ideal pass rewrote nothing, so the preservation claim is trivial.
-/
import proofs.«166481_j64450279244066_2_alg».proof.Defs
import proofs.«166481_j64450279244066_2_alg».proof.Proof.Gen.Kernel
import proofs.«166481_j64450279244066_2_alg».proof.Proof.PatchedKernel.Frame
import proofs.«166481_j64450279244066_2_alg».proof.Proof.Gen.KernelIdeal
import proofs.«166481_j64450279244066_2_alg».proof.Proof.PatchedKernelIdeal.Frame
import proofs.«166481_j64450279244066_2_alg».proof.Proof.Gen.ReferenceIdeal
import proofs.«166481_j64450279244066_2_alg».proof.Proof.Gen.ReferenceIdeal.Run
import proofs.«166481_j64450279244066_2_alg».proof.Proof.Gen.ReferenceIdeal.Read
import proofs.«166481_j64450279244066_2_alg».proof.Proof.Gen.Pre_finite_inputs
import proofs.«166481_j64450279244066_2_alg».proof.Proof.KernelValue
import proofs.«166481_j64450279244066_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments as they were: its run with the results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- Both idealized programs end with the five closed forms of the loss of the same inputs. -/
theorem algebraic : Cert.algebraic_KernelIdeal_ReferenceIdeal := by
  intro m ρ m' ρ' _ hagree
  refine ⟨_, _, _, _, _, Cert.KernelIdeal.KernelValue.run m ρ, ?_⟩
  refine (θ_run Cert.ReferenceIdeal.defs _ _).mono (fun _ h c => ?_) (Cert.ReferenceIdeal.Value.run (F := Ideal) m' ρ')
  obtain ⟨r90, r3, r7, r51, r83, rargs⟩ := h c
  obtain ⟨a0, a1, a2, a3, a4⟩ := hagree c
  refine ⟨?_, ?_, ?_, ?_, ?_, rargs⟩
  · rw [r90, Cert.ReferenceIdeal.Read.val_main_v90_eq, Cert.ReferenceIdeal.RefValue.ref_total, a0, a1, a2, a3, a4]
    rfl
  · rw [r3, Cert.ReferenceIdeal.Read.val_main_v3_eq, Cert.ReferenceIdeal.RefValue.ref_position, a0, a2]
    rfl
  · rw [r7, Cert.ReferenceIdeal.Read.val_main_v7_eq, Cert.ReferenceIdeal.RefValue.ref_size, a1, a3]
    rfl
  · rw [r51, Cert.ReferenceIdeal.Read.val_main_v51_eq, Cert.ReferenceIdeal.RefValue.ref_overlapPenalty, a0, a1]
    rfl
  · rw [r83, Cert.ReferenceIdeal.Read.val_main_v83_eq, Cert.ReferenceIdeal.RefValue.ref_adjacencyLoss, a0, a1, a4]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
